-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128 .f32) (main_arg6 : FVec F S128x64 .f32) (main_arg7 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x128 .f32) (main_arg1 : IVec S2x600000 32) (main_arg2 : FVec F S128x128 .f32) (main_arg3 : FVec F S128 .f32) (main_arg4 : FVec F S128x128 .f32) (main_arg5 : FVec F S128 .f32) (main_arg6 : FVec F S128x64 .f32) (main_arg7 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S5000x128 : Shape := ⟨2, ![5000, 128]⟩
abbrev S650000x128 : Shape := ⟨2, ![650000, 128]⟩
abbrev S5000x1 : Shape := ⟨2, ![5000, 1]⟩
abbrev S1x128 : Shape := ⟨2, ![1, 128]⟩
abbrev S50000x64 : Shape := ⟨2, ![50000, 64]⟩
abbrev S5000x64 : Shape := ⟨2, ![5000, 64]⟩
abbrev S1x64 : Shape := ⟨2, ![1, 64]⟩

abbrev nBuf : Space → Nat
  | .hbm => 75
  | .vmem => 38
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S50000, .i32⟩
  | .hbm, ⟨9, _⟩ => ⟨S1x600000, .i32⟩
  | .hbm, ⟨10, _⟩ => ⟨S600000, .i32⟩
  | .hbm, ⟨11, _⟩ => ⟨S650000, .i32⟩
  | .hbm, ⟨12, _⟩ => ⟨S1x600000, .i32⟩
  | .hbm, ⟨13, _⟩ => ⟨S600000, .i32⟩
  | .hbm, ⟨14, _⟩ => ⟨S650000, .i32⟩
  | .hbm, ⟨15, _⟩ => ⟨S_, .f32⟩
  | .hbm, ⟨16, _⟩ => ⟨S650000, .f32⟩
  | .hbm, ⟨17, _⟩ => ⟨S_, .f32⟩
  | .hbm, ⟨18, _⟩ => ⟨S50000, .f32⟩
  | .hbm, ⟨19, _⟩ => ⟨S650000x1, .i32⟩
  | .hbm, ⟨20, _⟩ => ⟨S50000, .f32⟩
  | .hbm, ⟨21, _⟩ => ⟨S50000, .f32⟩
  | .hbm, ⟨22, _⟩ => ⟨S_, .i32⟩
  | .hbm, ⟨23, _⟩ => ⟨S650000, .i32⟩
  | .hbm, ⟨24, _⟩ => ⟨S650000, .i1⟩
  | .hbm, ⟨25, _⟩ => ⟨S_, .i32⟩
  | .hbm, ⟨26, _⟩ => ⟨S650000, .i32⟩
  | .hbm, ⟨27, _⟩ => ⟨S650000, .i32⟩
  | .hbm, ⟨28, _⟩ => ⟨S650000, .i32⟩
  | .hbm, ⟨29, _⟩ => ⟨S650000x1, .i32⟩
  | .hbm, ⟨30, _⟩ => ⟨S650000, .f32⟩
  | .hbm, ⟨31, _⟩ => ⟨S_, .i32⟩
  | .hbm, ⟨32, _⟩ => ⟨S650000, .i32⟩
  | .hbm, ⟨33, _⟩ => ⟨S650000, .i1⟩
  | .hbm, ⟨34, _⟩ => ⟨S_, .i32⟩
  | .hbm, ⟨35, _⟩ => ⟨S650000, .i32⟩
  | .hbm, ⟨36, _⟩ => ⟨S650000, .i32⟩
  | .hbm, ⟨37, _⟩ => ⟨S650000, .i32⟩
  | .hbm, ⟨38, _⟩ => ⟨S650000x1, .i32⟩
  | .hbm, ⟨39, _⟩ => ⟨S650000, .f32⟩
  | .hbm, ⟨40, _⟩ => ⟨S650000, .f32⟩
  | .hbm, ⟨41, _⟩ => ⟨S650000x1, .f32⟩
  | .hbm, ⟨42, _⟩ => ⟨S50000x128, .f32⟩
  | .hbm, ⟨43, _⟩ => ⟨S_, .i32⟩
  | .hbm, ⟨44, _⟩ => ⟨S650000, .i32⟩
  | .hbm, ⟨45, _⟩ => ⟨S650000, .i1⟩
  | .hbm, ⟨46, _⟩ => ⟨S_, .i32⟩
  | .hbm, ⟨47, _⟩ => ⟨S650000, .i32⟩
  | .hbm, ⟨48, _⟩ => ⟨S650000, .i32⟩
  | .hbm, ⟨49, _⟩ => ⟨S650000, .i32⟩
  | .hbm, ⟨50, _⟩ => ⟨S650000x1, .i32⟩
  | .hbm, ⟨51, _⟩ => ⟨S650000x128, .f32⟩
  | .hbm, ⟨52, _⟩ => ⟨S650000x128, .f32⟩
  | .hbm, ⟨53, _⟩ => ⟨S_, .f32⟩
  | .hbm, ⟨54, _⟩ => ⟨S50000x128, .f32⟩
  | .hbm, ⟨55, _⟩ => ⟨S650000x1, .i32⟩
  | .hbm, ⟨56, _⟩ => ⟨S50000x128, .f32⟩
  | .hbm, ⟨57, _⟩ => ⟨S50000x128, .f32⟩
  | .hbm, ⟨58, _⟩ => ⟨S50000x128, .f32⟩
  | .hbm, ⟨59, _⟩ => ⟨S_, .i32⟩
  | .hbm, ⟨60, _⟩ => ⟨S650000, .i32⟩
  | .hbm, ⟨61, _⟩ => ⟨S650000, .i1⟩
  | .hbm, ⟨62, _⟩ => ⟨S_, .i32⟩
  | .hbm, ⟨63, _⟩ => ⟨S650000, .i32⟩
  | .hbm, ⟨64, _⟩ => ⟨S650000, .i32⟩
  | .hbm, ⟨65, _⟩ => ⟨S650000, .i32⟩
  | .hbm, ⟨66, _⟩ => ⟨S650000x1, .i32⟩
  | .hbm, ⟨67, _⟩ => ⟨S650000x128, .f32⟩
  | .hbm, ⟨68, _⟩ => ⟨S650000x128, .f32⟩
  | .hbm, ⟨69, _⟩ => ⟨S_, .f32⟩
  | .hbm, ⟨70, _⟩ => ⟨S50000x128, .f32⟩
  | .hbm, ⟨71, _⟩ => ⟨S650000x1, .i32⟩
  | .hbm, ⟨72, _⟩ => ⟨S50000x128, .f32⟩
  | .hbm, ⟨73, _⟩ => ⟨S50000x128, .f32⟩
  | .hbm, ⟨74, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x1, .f32⟩
  | .local _ .vmem, ⟨8, _⟩ => ⟨S5000x1, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x1, .f32⟩
  | .local _ .vmem, ⟨24, _⟩ => ⟨S5000x1, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S128x64, .f32⟩
  | .local _ .vmem, ⟨35, _⟩ => ⟨S64, .f32⟩
  | .local _ .vmem, ⟨36, _⟩ => ⟨S5000x64, .f32⟩
  | .local _ .vmem, ⟨37, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_4 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_c_7 : Ref sig .tc := ⟨.hbm, 59, rfl⟩
abbrev main_v42 : Ref sig .tc := ⟨.hbm, 60, rfl⟩
abbrev main_v43 : Ref sig .tc := ⟨.hbm, 61, rfl⟩
abbrev main_c_8 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_9 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc6_stg0_0 : Ref sig .tc := ⟨.vmem, 32, rfl⟩
abbrev cc6_stg0_1 : Ref sig .tc := ⟨.vmem, 33, rfl⟩
abbrev cc6_stg1_0 : Ref sig .tc := ⟨.vmem, 34, rfl⟩
abbrev cc6_stg2_0 : Ref sig .tc := ⟨.vmem, 35, rfl⟩
abbrev cc6_stg3_0 : Ref sig .tc := ⟨.vmem, 36, rfl⟩
abbrev cc6_stg3_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem1_1 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31
abbrev cc6_sem0_0 : DmaSem sig := 32
abbrev cc6_sem0_1 : DmaSem sig := 33
abbrev cc6_sem1_0 : DmaSem sig := 34
abbrev cc6_sem2_0 : DmaSem sig := 35
abbrev cc6_sem3_0 : DmaSem sig := 36
abbrev cc6_sem3_1 : DmaSem sig := 37

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![130], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![130], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  shapeCasts_S650000_S650000x1 : S650000.ShapeCasts S650000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S50000x128 : S_.BroadcastsInDim S50000x128 (![] : Fin 0 → Fin S50000x128.rank)
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S5000x128_S128x128_S5000x128_1_0_0_1_n_n_wf : DotDims.WF S5000x128 S128x128 S5000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S650000x128.size a
  hwx1_0 : ∀ i : grid1.Coords, EltTy.bits .f32 = 32 ∨ (Rect.block (s := S650000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S650000x1.size a
  hwx1_1 : ∀ i : grid1.Coords, EltTy.bits .f32 = 32 ∨ (Rect.block (s := S650000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S650000x128.size a
  hwx1_2 : ∀ i : grid1.Coords, EltTy.bits .f32 = 32 ∨ (Rect.block (s := S650000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128.size a ≤ S128.size a
  hwx2_1 : ∀ i : grid2.Coords, EltTy.bits .f32 = 32 ∨ (Rect.block (s := S128) S128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S650000x128.size a
  hwx4_0 : ∀ i : grid4.Coords, EltTy.bits .f32 = 32 ∨ (Rect.block (s := S650000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S650000x1.size a
  hwx4_1 : ∀ i : grid4.Coords, EltTy.bits .f32 = 32 ∨ (Rect.block (s := S650000x1) S5000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S650000x128.size a
  hwx4_2 : ∀ i : grid4.Coords, EltTy.bits .f32 = 32 ∨ (Rect.block (s := S650000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128.size a ≤ S128.size a
  hwx5_1 : ∀ i : grid5.Coords, EltTy.bits .f32 = 32 ∨ (Rect.block (s := S128) S128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S50000x128.size a
  hwx5_2 : ∀ i : grid5.Coords, EltTy.bits .f32 = 32 ∨ (Rect.block (s := S50000x128) S5000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x64.size a ≤ S128x64.size a
  hwx6_1 : ∀ i : grid6.Coords, EltTy.bits .f32 = 32 ∨ (Rect.block (s := S128x64) S128x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64.size a ≤ S64.size a
  hwx6_2 : ∀ i : grid6.Coords, EltTy.bits .f32 = 32 ∨ (Rect.block (s := S64) S64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x64.size a ≤ S50000x64.size a
  hwx6_3 : ∀ i : grid6.Coords, EltTy.bits .f32 = 32 ∨ (Rect.block (s := S50000x64) S5000x64.size (cc6_transform_3 i) (hinb6_3 i)).WholeWords (EltTy.packing .f32)

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v35) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v36) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v39) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v40) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v40) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v41) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v48) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v27) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v49) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v52) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg5) S128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v53) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v53) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg6) S128x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_arg7) S64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v54) S5000x64.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S1x128 : Shape := ⟨2, ![1, 128]⟩
abbrev S50000x64 : Shape := ⟨2, ![50000, 64]⟩
abbrev S1x64 : Shape := ⟨2, ![1, 64]⟩

abbrev nBuf : Space → Nat
  | .hbm => 110
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S50000, .i32⟩
  | .hbm, ⟨9, _⟩ => ⟨S1x600000, .i32⟩
  | .hbm, ⟨10, _⟩ => ⟨S600000, .i32⟩
  | .hbm, ⟨11, _⟩ => ⟨S650000, .i32⟩
  | .hbm, ⟨12, _⟩ => ⟨S1x600000, .i32⟩
  | .hbm, ⟨13, _⟩ => ⟨S600000, .i32⟩
  | .hbm, ⟨14, _⟩ => ⟨S650000, .i32⟩
  | .hbm, ⟨15, _⟩ => ⟨S_, .f32⟩
  | .hbm, ⟨16, _⟩ => ⟨S650000, .f32⟩
  | .hbm, ⟨17, _⟩ => ⟨S_, .f32⟩
  | .hbm, ⟨18, _⟩ => ⟨S50000, .f32⟩
  | .hbm, ⟨19, _⟩ => ⟨S650000x1, .i32⟩
  | .hbm, ⟨20, _⟩ => ⟨S50000, .f32⟩
  | .hbm, ⟨21, _⟩ => ⟨S50000, .f32⟩
  | .hbm, ⟨22, _⟩ => ⟨S50000x128, .f32⟩
  | .hbm, ⟨23, _⟩ => ⟨S_, .i32⟩
  | .hbm, ⟨24, _⟩ => ⟨S650000, .i32⟩
  | .hbm, ⟨25, _⟩ => ⟨S650000, .i1⟩
  | .hbm, ⟨26, _⟩ => ⟨S_, .i32⟩
  | .hbm, ⟨27, _⟩ => ⟨S650000, .i32⟩
  | .hbm, ⟨28, _⟩ => ⟨S650000, .i32⟩
  | .hbm, ⟨29, _⟩ => ⟨S650000, .i32⟩
  | .hbm, ⟨30, _⟩ => ⟨S650000x1, .i32⟩
  | .hbm, ⟨31, _⟩ => ⟨S650000, .f32⟩
  | .hbm, ⟨32, _⟩ => ⟨S_, .i32⟩
  | .hbm, ⟨33, _⟩ => ⟨S650000, .i32⟩
  | .hbm, ⟨34, _⟩ => ⟨S650000, .i1⟩
  | .hbm, ⟨35, _⟩ => ⟨S_, .i32⟩
  | .hbm, ⟨36, _⟩ => ⟨S650000, .i32⟩
  | .hbm, ⟨37, _⟩ => ⟨S650000, .i32⟩
  | .hbm, ⟨38, _⟩ => ⟨S650000, .i32⟩
  | .hbm, ⟨39, _⟩ => ⟨S650000x1, .i32⟩
  | .hbm, ⟨40, _⟩ => ⟨S650000, .f32⟩
  | .hbm, ⟨41, _⟩ => ⟨S650000, .f32⟩
  | .hbm, ⟨42, _⟩ => ⟨S_, .i32⟩
  | .hbm, ⟨43, _⟩ => ⟨S650000, .i32⟩
  | .hbm, ⟨44, _⟩ => ⟨S650000, .i1⟩
  | .hbm, ⟨45, _⟩ => ⟨S_, .i32⟩
  | .hbm, ⟨46, _⟩ => ⟨S650000, .i32⟩
  | .hbm, ⟨47, _⟩ => ⟨S650000, .i32⟩
  | .hbm, ⟨48, _⟩ => ⟨S650000, .i32⟩
  | .hbm, ⟨49, _⟩ => ⟨S650000x1, .i32⟩
  | .hbm, ⟨50, _⟩ => ⟨S650000x128, .f32⟩
  | .hbm, ⟨51, _⟩ => ⟨S650000x1, .f32⟩
  | .hbm, ⟨52, _⟩ => ⟨S650000x128, .f32⟩
  | .hbm, ⟨53, _⟩ => ⟨S650000x128, .f32⟩
  | .hbm, ⟨54, _⟩ => ⟨S_, .f32⟩
  | .hbm, ⟨55, _⟩ => ⟨S50000x128, .f32⟩
  | .hbm, ⟨56, _⟩ => ⟨S650000x1, .i32⟩
  | .hbm, ⟨57, _⟩ => ⟨S50000x128, .f32⟩
  | .hbm, ⟨58, _⟩ => ⟨S1x128, .f32⟩
  | .hbm, ⟨59, _⟩ => ⟨S50000x128, .f32⟩
  | .hbm, ⟨60, _⟩ => ⟨S50000x128, .f32⟩
  | .hbm, ⟨61, _⟩ => ⟨S_, .f32⟩
  | .hbm, ⟨62, _⟩ => ⟨S50000x128, .f32⟩
  | .hbm, ⟨63, _⟩ => ⟨S50000x128, .f32⟩
  | .hbm, ⟨64, _⟩ => ⟨S50000x128, .f32⟩
  | .hbm, ⟨65, _⟩ => ⟨S_, .i32⟩
  | .hbm, ⟨66, _⟩ => ⟨S650000, .i32⟩
  | .hbm, ⟨67, _⟩ => ⟨S650000, .i1⟩
  | .hbm, ⟨68, _⟩ => ⟨S_, .i32⟩
  | .hbm, ⟨69, _⟩ => ⟨S650000, .i32⟩
  | .hbm, ⟨70, _⟩ => ⟨S650000, .i32⟩
  | .hbm, ⟨71, _⟩ => ⟨S650000, .i32⟩
  | .hbm, ⟨72, _⟩ => ⟨S650000x1, .i32⟩
  | .hbm, ⟨73, _⟩ => ⟨S650000, .f32⟩
  | .hbm, ⟨74, _⟩ => ⟨S_, .i32⟩
  | .hbm, ⟨75, _⟩ => ⟨S650000, .i32⟩
  | .hbm, ⟨76, _⟩ => ⟨S650000, .i1⟩
  | .hbm, ⟨77, _⟩ => ⟨S_, .i32⟩
  | .hbm, ⟨78, _⟩ => ⟨S650000, .i32⟩
  | .hbm, ⟨79, _⟩ => ⟨S650000, .i32⟩
  | .hbm, ⟨80, _⟩ => ⟨S650000, .i32⟩
  | .hbm, ⟨81, _⟩ => ⟨S650000x1, .i32⟩
  | .hbm, ⟨82, _⟩ => ⟨S650000, .f32⟩
  | .hbm, ⟨83, _⟩ => ⟨S650000, .f32⟩
  | .hbm, ⟨84, _⟩ => ⟨S_, .i32⟩
  | .hbm, ⟨85, _⟩ => ⟨S650000, .i32⟩
  | .hbm, ⟨86, _⟩ => ⟨S650000, .i1⟩
  | .hbm, ⟨87, _⟩ => ⟨S_, .i32⟩
  | .hbm, ⟨88, _⟩ => ⟨S650000, .i32⟩
  | .hbm, ⟨89, _⟩ => ⟨S650000, .i32⟩
  | .hbm, ⟨90, _⟩ => ⟨S650000, .i32⟩
  | .hbm, ⟨91, _⟩ => ⟨S650000x1, .i32⟩
  | .hbm, ⟨92, _⟩ => ⟨S650000x128, .f32⟩
  | .hbm, ⟨93, _⟩ => ⟨S650000x1, .f32⟩
  | .hbm, ⟨94, _⟩ => ⟨S650000x128, .f32⟩
  | .hbm, ⟨95, _⟩ => ⟨S650000x128, .f32⟩
  | .hbm, ⟨96, _⟩ => ⟨S_, .f32⟩
  | .hbm, ⟨97, _⟩ => ⟨S50000x128, .f32⟩
  | .hbm, ⟨98, _⟩ => ⟨S650000x1, .i32⟩
  | .hbm, ⟨99, _⟩ => ⟨S50000x128, .f32⟩
  | .hbm, ⟨100, _⟩ => ⟨S1x128, .f32⟩
  | .hbm, ⟨101, _⟩ => ⟨S50000x128, .f32⟩
  | .hbm, ⟨102, _⟩ => ⟨S50000x128, .f32⟩
  | .hbm, ⟨103, _⟩ => ⟨S_, .f32⟩
  | .hbm, ⟨104, _⟩ => ⟨S50000x128, .f32⟩
  | .hbm, ⟨105, _⟩ => ⟨S50000x128, .f32⟩
  | .hbm, ⟨106, _⟩ => ⟨S50000x64, .f32⟩
  | .hbm, ⟨107, _⟩ => ⟨S1x64, .f32⟩
  | .hbm, ⟨108, _⟩ => ⟨S50000x64, .f32⟩
  | .hbm, ⟨109, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c : Ref sig .tc := ⟨.hbm, 23, rfl⟩
abbrev main_v13 : Ref sig .tc := ⟨.hbm, 24, rfl⟩
abbrev main_v14 : Ref sig .tc := ⟨.hbm, 25, rfl⟩
abbrev main_c_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_2 : Ref sig .tc := ⟨.hbm, 32, rfl⟩
abbrev main_v20 : Ref sig .tc := ⟨.hbm, 33, rfl⟩
abbrev main_v21 : Ref sig .tc := ⟨.hbm, 34, rfl⟩
abbrev main_c_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_call0_cst : Ref sig .tc := ⟨.hbm, 61, rfl⟩
abbrev main_call0_v0 : Ref sig .tc := ⟨.hbm, 62, rfl⟩
abbrev main_v44 : Ref sig .tc := ⟨.hbm, 63, rfl⟩
abbrev main_v45 : Ref sig .tc := ⟨.hbm, 64, rfl⟩
abbrev main_c_7 : Ref sig .tc := ⟨.hbm, 65, rfl⟩
abbrev main_v46 : Ref sig .tc := ⟨.hbm, 66, rfl⟩
abbrev main_v47 : Ref sig .tc := ⟨.hbm, 67, rfl⟩
abbrev main_c_8 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_c_9 : Ref sig .tc := ⟨.hbm, 74, rfl⟩
abbrev main_v53 : Ref sig .tc := ⟨.hbm, 75, rfl⟩
abbrev main_v54 : Ref sig .tc := ⟨.hbm, 76, rfl⟩
abbrev main_c_10 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_c_11 : Ref sig .tc := ⟨.hbm, 84, rfl⟩
abbrev main_v61 : Ref sig .tc := ⟨.hbm, 85, rfl⟩
abbrev main_v62 : Ref sig .tc := ⟨.hbm, 86, rfl⟩
abbrev main_c_12 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_13 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_call1_cst : Ref sig .tc := ⟨.hbm, 103, rfl⟩
abbrev main_call1_v0 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S650000x1_S650000_n_0_0_1_wf : ScatterDims.WF S50000 S650000x1 S650000 [] [0] [0] 1
  dot_S50000x128_S128x128_S50000x128_1_0_0_1_n_n_wf : DotDims.WF S50000x128 S128x128 S50000x128 [1] [0] [0] [1] [] []
  gather_S50000_S650000x1_S650000_n_0_n_n_0_1_1_wf : GatherDims.WF S50000 S650000x1 S650000 [] [0] [] [0] [] 1 ![1]
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S50000x128_S128x64_S50000x64_1_0_0_1_n_n_wf : DotDims.WF S50000x128 S128x64 S50000x64 [1] [0] [0] [1] [] []

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KernelRun.lean ====
/-
  The idealized kernel's run, with the result array named.

  @main is twelve segments: five stretches of host operations and seven kernel regions.  The buffers' contents at each
  segment boundary are a fold from the launch memory; after the last region the result array holds what that fold
  holds at the result's buffer, and the arguments hold what they were launched with.
-/
import proofs.«134347_j19172734010019_1_alg».proof.Proof.KernelIdealFrameP

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the idealized kernel with its result named: every weakly fair execution of @main terminates, nothing
    faulting, with the result array at what the last boundary's contents hold there and the arguments as launched. -/
theorem run_value : θ_run defs (onTc (τ := τ) (main (F := F))) ⟨m, fun _ => 0, ρ⟩ (fun r => ∀ c : Dev nD,
      r.2.mem ((c.tc : Thread nD τ).loc main_v54) = W12 m ρ c (Proc.devRef .tc main_v54)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v54 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c)⟩)

end Cert.KernelIdeal.Run

end
-- ==== Proof.Spec.lean ====
/-
  The network both programs compute, written once as a function of the argument arrays.

  A graph of 50000 nodes carries 600000 directed edges (row 0 of the edge array the senders, row 1 the receivers), to
  which one self loop per node is appended: 650000 (sender, receiver) pairs.  With deg(v) the number of pairs received
  by v and isq = deg^(-1/2), pair e has the weight norm(e) = isq(sender e) * isq(receiver e).  A layer sends row
  sender(e) of X*W along every pair, scaled by norm(e), adds up what each node receives, adds the bias row and takes
  the maximum with zero; the network is two such layers and an affine head H*Wo + bo.  A node number read from the
  edge array is taken signed and wrapped once (n + 50000 when negative) before a row is fetched, as the printed
  programs do; fetching rows and adding rows up are the host's own gather and accumulating scatter, kept whole here.
-/
import proofs.«134347_j19172734010019_1_alg».proof.Proof.Gen.ReferenceIdeal
import Idealize.ShloMosaic.PureOps.Ideal

noncomputable section

namespace Cert.Spec

open Idealize.ShloMosaic Cert.ReferenceIdeal Cert.ReferenceIdeal.Facts₀

/-- A float array of shape `s` on the extended reals, and an array of 32-bit integers. -/
abbrev AF (s : Shape) : Type := FVec Ideal s .f32
abbrev AI (s : Shape) : Type := IVec s 32

/-- Row `r` of the edge array followed by the node numbers 0 … 49999 (the self loops). -/
def ends (r : Fin 2 → Nat) (hr : S2x600000.Slices r S1x600000) (E : AI S2x600000) : AI S650000 :=
  concatenate S650000 0 [⟨S600000, (shapeCast _ (extractStridedSlice S1x600000 r E hr) shapeCasts_S1x600000_S600000)⟩, ⟨S50000, (iotaInDim S50000 32 0)⟩] concatenates_S600000_S50000_S650000_d0

/-- The senders and the receivers of the 650000 pairs. -/
def srcIdx (E : AI S2x600000) : AI S650000 := ends ![0, 0] slices_S2x600000_S1x600000_0_0 E
def dstIdx (E : AI S2x600000) : AI S650000 := ends ![1, 0] slices_S2x600000_S1x600000_1_0 E

/-- A vector of node numbers as the index column a gather or a scatter takes. -/
def col (s : AI S650000) : AI S650000x1 := broadcastInDim S650000x1 ![0] bcast_S650000_S650000x1_0 s

/-- The same after a negative number has been wrapped once by the node count. -/
def wrap (s : AI S650000) : AI S650000x1 :=
  col (select (cmpi .slt s (broadcastInDim S650000 ![] bcast_S_S650000 (constantI S_ 32 0#32)))
    (addi s (broadcastInDim S650000 ![] bcast_S_S650000 (constantI S_ 32 50000#32))) s)

/-- deg^(-1/2): the pairs received by each node counted by an accumulating scatter of ones, then the reciprocal root. -/
def isq (E : AI S2x600000) : AF S50000 :=
  Host.rsqrt (F := Ideal) (Host.scatterAdd (F := Ideal) scatter_S50000_S650000x1_S650000_n_0_0_1
    (broadcastInDim S50000 ![] bcast_S_S50000 (constant (F := Ideal) S_ .f32 0x00000000#32)) (col (dstIdx E))
    (broadcastInDim S650000 ![] bcast_S_S650000 (constant (F := Ideal) S_ .f32 0x3F800000#32)))

/-- The weight of each pair. -/
def norm (E : AI S2x600000) : AF S650000 :=
  mulf (F := Ideal) (Host.gather gather_S50000_S650000x1_S650000_n_0_n_n_0_1_1 (isq E) (wrap (srcIdx E)))
    (Host.gather gather_S50000_S650000x1_S650000_n_0_n_n_0_1_1 (isq E) (wrap (dstIdx E)))

/-- A column of one weight per pair repeated along the 128 features. -/
def spread (n1 : AF S650000x1) : AF S650000x128 := broadcastInDim S650000x128 ![0, 1] bcast_S650000x1_S650000x128_0_1 n1

/-- The weights as a column. -/
def normCol (n : AF S650000) : AF S650000x1 := broadcastInDim S650000x1 ![0] bcast_S650000_S650000x1_0 n

/-- A bias vector repeated along the 50000 rows. -/
def rowBias (b : AF S128) : AF S50000x128 :=
  broadcastInDim S50000x128 ![0, 1] bcast_S1x128_S50000x128_0_1 (broadcastInDim S1x128 ![1] bcast_S128_S1x128_1 b)

/-- The maximum with zero. -/
def relu (a : AF S50000x128) : AF S50000x128 :=
  maximumf (F := Ideal) a (broadcastInDim S50000x128 ![] bcast_S_S50000x128 (constant (F := Ideal) S_ .f32 0x00000000#32))

/-- The product X*W of the node features with a square weight matrix. -/
def proj (x : AF S50000x128) (W : AF S128x128) : AF S50000x128 :=
  Host.dotGeneral (F := Ideal) dot_S50000x128_S128x128_S50000x128_1_0_0_1_n_n none x W

/-- Row sender(e) of `h` for every pair e. -/
def rows (E : AI S2x600000) (h : AF S50000x128) : AF S650000x128 :=
  Host.gather gather_S50000x128_S650000x1_S650000x128_1_0_n_n_0_1_1128 h (wrap (srcIdx E))

/-- The messages added up at their receivers. -/
def agg (E : AI S2x600000) (msg : AF S650000x128) : AF S50000x128 :=
  Host.scatterAdd (F := Ideal) scatter_S50000x128_S650000x1_S650000x128_1_0_0_1
    (broadcastInDim S50000x128 ![] bcast_S_S50000x128 (constant (F := Ideal) S_ .f32 0x00000000#32)) (col (dstIdx E)) msg

/-- One layer. -/
def layer (E : AI S2x600000) (x : AF S50000x128) (W : AF S128x128) (b : AF S128) : AF S50000x128 :=
  relu (addf (F := Ideal) (agg E (mulf (F := Ideal) (rows E (proj x W)) (spread (normCol (norm E))))) (rowBias b))

/-- The affine head. -/
def head (h : AF S50000x128) (Wo : AF S128x64) (bo : AF S64) : AF S50000x64 :=
  addf (F := Ideal) (Host.dotGeneral (F := Ideal) dot_S50000x128_S128x64_S50000x64_1_0_0_1_n_n none h Wo)
    (broadcastInDim S50000x64 ![0, 1] bcast_S1x64_S50000x64_0_1 (broadcastInDim S1x64 ![1] bcast_S64_S1x64_1 bo))

/-- The network. -/
def net (E : AI S2x600000) (x : AF S50000x128) (W1 : AF S128x128) (b1 : AF S128) (W2 : AF S128x128) (b2 : AF S128)
    (Wo : AF S128x64) (bo : AF S64) : AF S50000x64 :=
  head (layer E (layer E x W1 b1) W2 b2) Wo bo

end Cert.Spec

end
-- ==== Proof.LibHostRead.lean ====
/-
  Host and kernel layout operations read at an index of a rank-2 array, and a plain matrix product as a sum.

  `broadcast_in_dim` in the five forms a row-wise reference uses — a vector as the one row or the one column of a
  matrix, a row or a column repeated along a matrix, a scalar spread over any shape —, each read at `ix2 p c`; and a
  dot that is rows × contraction times contraction × columns (`PlainDot`: one contracted axis, the four coordinate
  facts, each a `decide` or a library lemma at a literal dot) read at `(p, j)` as `Σ k, lhs (p, k) · rhs (k, j)`,
  for the host's `dot_general` and for the kernel's matrix product into the zero accumulator. On the extended reals.
-/
import Idealize.ShloMosaic.Lib.Pipeline.Value
import Idealize.ShloMosaic.Lib.ValueIdx
import Idealize.ShloMosaic.PureOps.Ideal.Laws

noncomputable section

namespace Cert.LibHostRead

open Idealize.ShloMosaic Idealize.ShloMosaic.ValueIdx

variable {α : Type}

/-- A vector `[b]` placed as the one row of `[1, b]`: at `(u, c)` it reads the vector at `c`. -/
theorem bid_b_1b_apply {b : ℕ} (x : (⟨1, ![b]⟩ : Shape).Idx → α) (h : (⟨1, ![b]⟩ : Shape).BroadcastsInDim ⟨2, ![1, b]⟩ ![1])
    (u : Fin 1) (c : Fin b) : broadcastInDim ⟨2, ![1, b]⟩ ![1] h x (ix2 u c) = x (ix1 c) :=
  broadcastInDim_apply _ h x _ _ fun a => by
    match a with
    | ⟨0, _⟩ =>
      show c.val = if b = 1 then 0 else c.val
      split
      · have := c.isLt; omega
      · rfl

/-- A row `[1, b]` repeated along `[a, b]`: at `(p, c)` it reads the row at `c`. -/
theorem bid_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) :=
  broadcastInDim_apply _ h v _ _ fun ax => by
    match ax with
    | ⟨0, _⟩ => show 0 = if (1 : ℕ) = 1 then 0 else p.val; rw [if_pos rfl]
    | ⟨1, _⟩ =>
      show c.val = if b = 1 then 0 else c.val
      split
      · have := c.isLt; omega
      · rfl

/-- A vector `[a]` placed as the one column of `[a, 1]`: at `(p, u)` it reads the vector at `p`. -/
theorem bid_a_a1_apply {a : ℕ} (x : (⟨1, ![a]⟩ : Shape).Idx → α) (h : (⟨1, ![a]⟩ : Shape).BroadcastsInDim ⟨2, ![a, 1]⟩ ![0])
    (p : Fin a) (u : Fin 1) : broadcastInDim ⟨2, ![a, 1]⟩ ![0] h x (ix2 p u) = x (ix1 p) :=
  broadcastInDim_apply _ h x _ _ fun ax => by
    match ax with
    | ⟨0, _⟩ =>
      show p.val = if a = 1 then 0 else p.val
      split
      · have := p.isLt; omega
      · rfl

/-- A column `[a, 1]` repeated along `[a, b]`: at `(p, c)` it reads the column at `p`. -/
theorem bid_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) :=
  broadcastInDim_apply _ h v _ _ fun ax => by
    match ax with
    | ⟨0, _⟩ =>
      show p.val = if a = 1 then 0 else p.val
      split
      · have := p.isLt; omega
      · rfl
    | ⟨1, _⟩ => show 0 = if (1 : ℕ) = 1 then 0 else c.val; rw [if_pos rfl]

/-- A scalar spread over any shape reads the scalar everywhere. -/
theorem bid_scalar_apply {t : Shape} (x : (⟨0, ![]⟩ : Shape).Idx → α) (h : (⟨0, ![]⟩ : Shape).BroadcastsInDim t ![])
    (i : t.Idx) : broadcastInDim t ![] h x i = x ix0 :=
  broadcastInDim_apply _ h x i ix0 fun a => a.elim0

/-- What makes a dot a plain product of an `M × K` by a `K × N` matrix: one contracted axis of extent `K`; the left operand
    is read at (row of the result, contracted coordinate), the right at (contracted coordinate, column of the result). -/
structure PlainDot {M K N : ℕ} (d : DotDims ⟨2, ![M, K]⟩ ⟨2, ![K, N]⟩ ⟨2, ![M, N]⟩) : Prop where
  hr : d.contr.rank = 1
  hs : d.contr.size ⟨0, by omega⟩ = K
  hl0 : ∀ (i : (⟨2, ![M, N]⟩ : Shape).Idx) (q : d.contr.Idx), (d.lhsIdx i q 0).val = (i 0).val
  hl1 : ∀ (i : (⟨2, ![M, N]⟩ : Shape).Idx) (q : d.contr.Idx), (d.lhsIdx i q 1).val = (q ⟨0, by omega⟩).val
  hr0 : ∀ (i : (⟨2, ![M, N]⟩ : Shape).Idx) (q : d.contr.Idx), (d.rhsIdx i q 0).val = (q ⟨0, by omega⟩).val
  hr1 : ∀ (i : (⟨2, ![M, N]⟩ : Shape).Idx) (q : d.contr.Idx), (d.rhsIdx i q 1).val = (i 1).val

/-- The sum over a plain dot's contraction index is the sum over `Fin K` of the products along row `p` and column `j`. -/
theorem PlainDot.sum_eq {M K N : ℕ} {d : DotDims ⟨2, ![M, K]⟩ ⟨2, ![K, N]⟩ ⟨2, ![M, N]⟩} (hd : PlainDot d)
    (lhs : (⟨2, ![M, K]⟩ : Shape).Idx → EReal) (rhs : (⟨2, ![K, N]⟩ : Shape).Idx → EReal) (p : Fin M) (j : Fin N) :
    ∑ k : d.contr.Idx, lhs (d.lhsIdx (ix2 p j) k) * rhs (d.rhsIdx (ix2 p j) k) = ∑ k : Fin K, lhs (ix2 p k) * rhs (ix2 k j) := by
  rw [← Equiv.sum_comp (contrEquiv1 d K hd.hr hd.hs).symm]
  refine Finset.sum_congr rfl fun k _ => ?_
  have hk := contrEquiv1_symm_val d K hd.hr hd.hs k
  have el : d.lhsIdx (ix2 p j) ((contrEquiv1 d K hd.hr hd.hs).symm k) = ix2 p k := funext fun a => Fin.ext (by
    match a with
    | ⟨0, _⟩ => exact hd.hl0 _ _
    | ⟨1, _⟩ => exact (hd.hl1 _ _).trans hk)
  have er : d.rhsIdx (ix2 p j) ((contrEquiv1 d K hd.hr hd.hs).symm k) = ix2 k j := funext fun a => Fin.ext (by
    match a with
    | ⟨0, _⟩ => exact (hd.hr0 _ _).trans hk
    | ⟨1, _⟩ => exact hd.hr1 _ _)
  rw [el, er]

/-- The host's product of two matrices at `(p, j)`. -/
theorem dotGeneral_plain_apply {M K N : ℕ} {φ₁ φ₂ : FTy} (d : DotDims ⟨2, ![M, K]⟩ ⟨2, ![K, N]⟩ ⟨2, ![M, N]⟩)
    (hd : PlainDot d) (lhs : FVec Ideal ⟨2, ![M, K]⟩ φ₁) (rhs : FVec Ideal ⟨2, ![K, N]⟩ φ₂) (p : Fin M) (j : Fin N) :
    FloatOps.dotGeneral d none .single lhs rhs (ix2 p j) = ∑ k : Fin K, lhs (ix2 p k) * rhs (ix2 k j) := by
  rw [Ideal.dotGeneral_apply]
  exact hd.sum_eq lhs rhs p j

/-- The kernel's matrix product into the zero accumulator at `(p, j)`. -/
theorem matmul_plain_zero_apply {M K N : ℕ} {φ₁ φ₂ : FTy} (d : DotDims ⟨2, ![M, K]⟩ ⟨2, ![K, N]⟩ ⟨2, ![M, N]⟩)
    (hd : PlainDot d) (lhs : FVec Ideal ⟨2, ![M, K]⟩ φ₁) (rhs : FVec Ideal ⟨2, ![K, N]⟩ φ₂) (p : Fin M) (j : Fin N) :
    FloatOps.matmul d none lhs rhs (constant ⟨2, ![M, N]⟩ .f32 0x00000000#32) (ix2 p j)
      = ∑ k : Fin K, lhs (ix2 p k) * rhs (ix2 k j) := by
  rw [Ideal.matmul_constant_zero_apply]
  exact hd.sum_eq lhs rhs p j

end Cert.LibHostRead

end
-- ==== Proof.LibPlainDot.lean ====
/-
  The plain matrix product's dimension numbers read as rows times columns.

  The dimension numbers of an M × K by K × N product — the left operand contracted on its second axis, the right on
  its first, no batch axis — satisfy the four coordinate facts of `PlainDot`: the left operand is read at (row of the
  result, contracted coordinate), the right at (contracted coordinate, column of the result). A printed product with
  these dimension numbers is this record up to the proof of its well-formedness, so the facts transfer to it by
  unfolding.
-/
import proofs.«134347_j19172734010019_1_alg».proof.Proof.LibHostRead
import Idealize.ShloMosaic.Lib.ValueLayout

noncomputable section

namespace Cert.LibPlainDot

open Idealize.ShloMosaic Idealize.ShloMosaic.ValueIdx Cert.LibHostRead

/-- The plain M × K by K × N product is rows times columns. -/
theorem plainDot_plain (M K N : ℕ) : PlainDot (DotDims.plain M K N) where
  hr := rfl
  hs := rfl
  hl0 := fun _ _ => rfl
  hl1 := fun _ _ => rfl
  hr0 := fun _ _ => rfl
  hr1 := fun _ _ => rfl

/-- A vector placed as the one row of a matrix and repeated along the rows reads, at (p, c), the vector at c. -/
theorem rowBias_apply {α : Type} {a b : ℕ} (x : (⟨1, ![b]⟩ : Shape).Idx → α)
    (hs : (⟨1, ![b]⟩ : Shape).ShapeCasts ⟨2, ![1, b]⟩) (hb : (⟨2, ![1, b]⟩ : Shape).Broadcasts ⟨2, ![a, b]⟩)
    (p : Fin a) (c : Fin b) :
    broadcastTo ⟨2, ![a, b]⟩ (shapeCast ⟨2, ![1, b]⟩ x hs) hb (ix2 p c) = x (ix1 c) := by
  rw [broadcastTo_1b_ab_apply, shapeCast_a_1a_apply]

/-- The vector unit's matrix product into the zero accumulator, at (p, j), is the sum over the contracted axis. -/
theorem vmatmul_apply {M K N : ℕ} {φ₁ φ₂ : FTy} (d : DotDims ⟨2, ![M, K]⟩ ⟨2, ![K, N]⟩ ⟨2, ![M, N]⟩) (hd : PlainDot d)
    (lhs : FVec Ideal ⟨2, ![M, K]⟩ φ₁) (rhs : FVec Ideal ⟨2, ![K, N]⟩ φ₂) (p : Fin M) (j : Fin N) :
    matmul d none lhs rhs (constant ⟨2, ![M, N]⟩ .f32 0x00000000#32) (ix2 p j) = ∑ k : Fin K, lhs (ix2 p k) * rhs (ix2 k j) :=
  matmul_plain_zero_apply d hd lhs rhs p j

/-- The host's matrix product at (p, j) is the sum over the contracted axis. -/
theorem hdot_apply {M K N : ℕ} {φ₁ φ₂ : FTy} (d : DotDims ⟨2, ![M, K]⟩ ⟨2, ![K, N]⟩ ⟨2, ![M, N]⟩) (hd : PlainDot d)
    (lhs : FVec Ideal ⟨2, ![M, K]⟩ φ₁) (rhs : FVec Ideal ⟨2, ![K, N]⟩ φ₂) (p : Fin M) (j : Fin N) :
    Host.dotGeneral d none lhs rhs (ix2 p j) = ∑ k : Fin K, lhs (ix2 p k) * rhs (ix2 k j) :=
  dotGeneral_plain_apply d hd lhs rhs p j

end Cert.LibPlainDot

end
-- ==== Proof.LibKeepdims.lean ====
/-
  Two layout operations read at an index, for a reduction that keeps its axis as a unit column:
  a vector [a] cast to a column [a, 1], and a column [a, 1] broadcast along the rows of [a, b].
  Together: (broadcast (cast v)) (p, c) = v p — every entry of row p is the row's reduced value.
-/
import Idealize.ShloMosaic.Lib.Pipeline.Value
import Idealize.ShloMosaic.Lib.ValueIdx
import Idealize.ShloMosaic.Lib.ValueLayout

noncomputable section

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector's entry `p` spread along row `p`: the cast to a column followed by the broadcast along the rows. -/
theorem keepdims_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) := by
  rw [broadcastTo_a1_ab_apply, shapeCast_a_a1_apply]

end Cert.LibKeepdims

end
-- ==== Proof.SpecRead.lean ====
/-
  The specification's host operations read at an entry.

  A product X*W at (p, j) is the sum over k of X(p, k) * W(k, j); a bias row repeated along the rows reads the bias at
  the column; a weight column repeated along the features reads the weight of the row; the maximum with the zero
  array is the maximum with zero.  The weights laid out as a column by a reshape or by a broadcast are one array.
-/
import proofs.«134347_j19172734010019_1_alg».proof.Proof.Spec
import proofs.«134347_j19172734010019_1_alg».proof.Proof.LibHostRead
import proofs.«134347_j19172734010019_1_alg».proof.Proof.LibPlainDot
import proofs.«134347_j19172734010019_1_alg».proof.Proof.LibKeepdims
import Idealize.ShloMosaic.Lib.ValueIdx

noncomputable section

namespace Cert.SpecRead

open Idealize.ShloMosaic Idealize.ShloMosaic.ValueIdx Cert.ReferenceIdeal Cert.ReferenceIdeal.Facts₀
open Cert.Spec Cert.LibHostRead Cert.LibPlainDot

/-- Both printed products are rows times columns. -/
theorem plain128 : PlainDot dot_S50000x128_S128x128_S50000x128_1_0_0_1_n_n := plainDot_plain 50000 128 128
theorem plain64 : PlainDot dot_S50000x128_S128x64_S50000x64_1_0_0_1_n_n := plainDot_plain 50000 128 64

/-- X*W at (p, j). -/
theorem proj_apply (x : AF S50000x128) (W : AF S128x128) (p : Fin 50000) (j : Fin 128) :
    proj x W (ix2 p j) = ∑ k : Fin 128, x (ix2 p k) * W (ix2 k j) :=
  hdot_apply _ plain128 x W p j

/-- max(a + b, 0) at (p, j). -/
theorem relu_bias_apply (a : AF S50000x128) (b : AF S128) (p : Fin 50000) (j : Fin 128) :
    relu (addf (F := Ideal) a (rowBias b)) (ix2 p j) = max (a (ix2 p j) + b (ix1 j)) (Ideal.ofBits .f32 0x00000000#32) := by
  unfold relu rowBias
  rw [maximumf_apply, addf_apply, bid_1b_ab_apply, bid_b_1b_apply, bid_scalar_apply, constant_apply]

/-- A row of messages scaled by its pair's weight, at (e, j). -/
theorem scale_apply (h : AF S650000x128) (n1 : AF S650000x1) (e : Fin 650000) (j : Fin 128) :
    mulf (F := Ideal) h (spread n1) (ix2 e j) = h (ix2 e j) * n1 (ix2 e (0 : Fin 1)) := by
  unfold spread
  rw [mulf_apply, bid_a1_ab_apply]

/-- H*Wo + bo at (p, j). -/
theorem head_apply (h : AF S50000x128) (Wo : AF S128x64) (bo : AF S64) (p : Fin 50000) (j : Fin 64) :
    head h Wo bo (ix2 p j) = (∑ k : Fin 128, h (ix2 p k) * Wo (ix2 k j)) + bo (ix1 j) := by
  unfold head
  rw [addf_apply, hdot_apply _ plain64, bid_1b_ab_apply, bid_b_1b_apply]

/-- The weights reshaped to a column are the weights broadcast to a column. -/
theorem reshape_eq_normCol (n : AF S650000) (h : S650000.ShapeCasts S650000x1) :
    shapeCast S650000x1 n h = normCol n := by
  funext i
  obtain ⟨e, u, rfl⟩ : ∃ (e : Fin 650000) (u : Fin 1), i = ix2 e u := ⟨i 0, i 1, eq_ix2 i⟩
  unfold normCol
  rw [Cert.LibKeepdims.shapeCast_a_a1_apply, bid_a_a1_apply]

end Cert.SpecRead

end
-- ==== Proof.RegionMatmul.lean ====
/-
  The two matrix-product regions of the kernel, read as whole-array functions.

  Each region multiplies a block of 5000 rows of the node features by the whole 128 x 128 weight matrix into a zero
  accumulator; ten blocks tile the 50000 rows.  An entry (p, j) of a block's product is the sum over k of the block's
  row p times column j of the weights, which is the same sum the host's product has at the block's row of the array;
  the blocks cover the array, so the array the region leaves is the host's X*W of the arrays it found.
-/
import proofs.«134347_j19172734010019_1_alg».proof.Proof.SpecRead
import proofs.«134347_j19172734010019_1_alg».proof.Proof.KernelIdealFrameP
import Idealize.ShloMosaic.Lib.Pipeline.Value
import Idealize.ShloMosaic.Lib.ValueIdx
import Idealize.ShloMosaic.Lib.ValueLayout

set_option maxRecDepth 16384

noncomputable section

namespace Cert.KernelIdeal.RegionMatmul

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP Cert.Spec Cert.SpecRead

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-! ## Region 0: X*W, ten blocks of 5000 rows against the whole weight matrix -/

/-- The printed index maps over the grid: the row blocks of X and of the output move with the point; W is one block. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Block t of X is its rows 5000 t … 5000 t + 4999. -/
theorem iblk0_0_apply (c : Dev nD) (t : Fin cfg0.N) (y : S5000x128.Idx) (i : S50000x128.Idx)
    (h0 : (i 0).val = t.val * 5000 + (y 0).val) (h1 : (i 1).val = (y 1).val) :
    (iblk0 V c 0 t : Vec Ideal S5000x128 .f32) y = (V c main_arg0 : Vec Ideal S50000x128 .f32) i := by
  obtain ⟨e0, e1, -, -, -, -⟩ := idx0 t
  unfold iblk0
  rw [View.read_apply]
  show V c main_arg0 _ = V c main_arg0 _
  congr 1
  funext a
  apply Fin.ext
  match a with
  | ⟨0, _⟩ => show win0_0.index t (0 : Fin 2) * 5000 + 1 * (y 0).val = (i 0).val; rw [e0, h0]; omega
  | ⟨1, _⟩ => show win0_0.index t (1 : Fin 2) * 128 + 1 * (y 1).val = (i 1).val; rw [e1, h1]; omega

/-- The weight window's one block is W. -/
theorem iblk0_1_eq (c : Dev nD) (t : Fin cfg0.N) :
    (iblk0 V c 1 t : Vec Ideal S128x128 .f32) = (V c main_arg2 : Vec Ideal S128x128 .f32) := by
  obtain ⟨-, -, e2, e3, -, -⟩ := idx0 t
  funext y
  unfold iblk0
  rw [View.read_apply]
  show V c main_arg2 _ = V c main_arg2 _
  congr 1
  funext a
  apply Fin.ext
  match a with
  | ⟨0, _⟩ => show win0_1.index t (0 : Fin 2) * 128 + 1 * (y 0).val = (y 0).val; rw [e2]; omega
  | ⟨1, _⟩ => show win0_1.index t (1 : Fin 2) * 128 + 1 * (y 1).val = (y 1).val; rw [e3]; omega

/-- The body's value at an entry of the block: the row of the block times the column of W (the narrowing of the
    operands to bf16 is the identity on the extended reals). -/
theorem pay0_apply (x0 : Vec Ideal S5000x128 .f32) (x1 : Vec Ideal S128x128 .f32) (p : Fin 5000) (j : Fin 128) :
    k0_pay1 x0 x1 (ix2 p j) = ∑ q : Fin 128, x0 (ix2 p q) * x1 (ix2 q j) := by
  simp only [k0_pay1, shapeCast_self]
  exact Cert.LibPlainDot.vmatmul_apply dot_S5000x128_S128x128_S5000x128_1_0_0_1_n_n (Cert.LibPlainDot.plainDot_plain 5000 128 128) _ _ p j

/-- At one entry the body's value is the host's product, when the block's row is the array's. -/
theorem point0 (x0 : Vec Ideal S5000x128 .f32) (x1 : Vec Ideal S128x128 .f32) (A : AF S50000x128) (B : AF S128x128)
    (y : S5000x128.Idx) (i : S50000x128.Idx) (hrow : ∀ q : Fin 128, x0 (ix2 (y 0) q) = A (ix2 (i 0) q)) (hx1 : x1 = B)
    (hj : (i 1).val = (y 1).val) :
    k0_pay1 x0 x1 y = proj A B i := by
  obtain ⟨p, j, rfl⟩ : ∃ (p : Fin 5000) (j : Fin 128), y = ix2 p j := ⟨y 0, y 1, eq_ix2 y⟩
  obtain ⟨P, j', rfl⟩ : ∃ (P : Fin 50000) (j' : Fin 128), i = ix2 P j' := ⟨i 0, i 1, eq_ix2 i⟩
  obtain rfl : j' = j := Fin.ext hj
  rw [pay0_apply, proj_apply, hx1]
  exact Finset.sum_congr rfl fun q _ => congrArg (· * B (ix2 q j')) (hrow q)

/-- What point t writes back is block t of X*W. -/
theorem flushed0_eq (c : Dev nD) (t : Fin cfg0.N) :
    (dat0 V c).flushed 2 t = ((cfg0.win 2).blk t).view.read (Elt Ideal) (proj (V c main_arg0) (V c main_arg2)) := by
  show (cfg0.win 2).cut (grid0.coords t) ((dat0 V c).after 2 t) = _
  rw [after0_2]
  unfold out0_2
  rw [View.canon_unit_zero hz2]
  simp only [View.ld_unit_zero (S := S5000x128) hz2, View.ld_unit_zero (S := S128x128) hz2]
  obtain ⟨-, -, -, -, e4, e5⟩ := idx0 t
  funext y
  show k0_pay1 (iblk0 V c 0 t) (iblk0 V c 1 t) y = proj (V c main_arg0) (V c main_arg2) (((cfg0.win 2).blk t).view.emb y)
  have hP : ((((cfg0.win 2).blk t).view.emb y) 0).val = t.val * 5000 + (y 0).val := by
    show win0_2.index t (0 : Fin 2) * 5000 + 1 * (y 0).val = _; rw [e4]; omega
  have hj : ((((cfg0.win 2).blk t).view.emb y) 1).val = (y 1).val := by
    show win0_2.index t (1 : Fin 2) * 128 + 1 * (y 1).val = _; rw [e5]; omega
  exact point0 (iblk0 V c 0 t) (iblk0 V c 1 t) (V c main_arg0) (V c main_arg2) y (((cfg0.win 2).blk t).view.emb y)
    (fun q => iblk0_0_apply V c t (ix2 (y 0) q) (ix2 ((((cfg0.win 2).blk t).view.emb y) 0) q) hP rfl) (iblk0_1_eq V c t) hj

/-- An index is in point t's block iff each coordinate is in the block's range. -/
theorem mem_blk0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v28).slice (win0_2.rect t)).set ↔ _
  rw [View.set_slice_whole, Rect.mem_set_unit]
  exact Iff.rfl

/-- Row r lies in the block of point r / 5000. -/
theorem cover0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  have ht : (i 0).val / 5000 < cfg0.N := by rw [hN]; omega
  obtain ⟨-, -, -, -, e4, e5⟩ := idx0 ⟨(i 0).val / 5000, ht⟩
  refine ⟨⟨(i 0).val / 5000, ht⟩, flush0_2 _, ?_⟩
  rw [mem_blk0]
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, ht⟩ (1 : Fin 2) * 128 ≤ (i 1).val ∧ (i 1).val < win0_2.index ⟨(i 0).val / 5000, ht⟩ (1 : Fin 2) * 128 + 128
    rw [e5]; omega

/-- The array after region 0: X*W of the arrays the region found. -/
theorem final0 (c : Dev nD) : (dat0 V c).arrAt 2 cfg0.N = proj (V c main_arg0) (V c main_arg2) :=
  (dat0 V c).arrAt_eq_of_cover 2 _ (fun t _ => flushed0_eq V c t) (cover0)

/-! ## Region 3: X*W, ten blocks of 5000 rows against the whole weight matrix -/

/-- The printed index maps over the grid: the row blocks of X and of the output move with the point; W is one block. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Block t of X is its rows 5000 t … 5000 t + 4999. -/
theorem iblk3_0_apply (c : Dev nD) (t : Fin cfg3.N) (y : S5000x128.Idx) (i : S50000x128.Idx)
    (h0 : (i 0).val = t.val * 5000 + (y 0).val) (h1 : (i 1).val = (y 1).val) :
    (iblk3 V c 0 t : Vec Ideal S5000x128 .f32) y = (V c main_v40 : Vec Ideal S50000x128 .f32) i := by
  obtain ⟨e0, e1, -, -, -, -⟩ := idx3 t
  unfold iblk3
  rw [View.read_apply]
  show V c main_v40 _ = V c main_v40 _
  congr 1
  funext a
  apply Fin.ext
  match a with
  | ⟨0, _⟩ => show win3_0.index t (0 : Fin 2) * 5000 + 1 * (y 0).val = (i 0).val; rw [e0, h0]; omega
  | ⟨1, _⟩ => show win3_0.index t (1 : Fin 2) * 128 + 1 * (y 1).val = (i 1).val; rw [e1, h1]; omega

/-- The weight window's one block is W. -/
theorem iblk3_1_eq (c : Dev nD) (t : Fin cfg3.N) :
    (iblk3 V c 1 t : Vec Ideal S128x128 .f32) = (V c main_arg4 : Vec Ideal S128x128 .f32) := by
  obtain ⟨-, -, e2, e3, -, -⟩ := idx3 t
  funext y
  unfold iblk3
  rw [View.read_apply]
  show V c main_arg4 _ = V c main_arg4 _
  congr 1
  funext a
  apply Fin.ext
  match a with
  | ⟨0, _⟩ => show win3_1.index t (0 : Fin 2) * 128 + 1 * (y 0).val = (y 0).val; rw [e2]; omega
  | ⟨1, _⟩ => show win3_1.index t (1 : Fin 2) * 128 + 1 * (y 1).val = (y 1).val; rw [e3]; omega

/-- The body's value at an entry of the block: the row of the block times the column of W (the narrowing of the
    operands to bf16 is the identity on the extended reals). -/
theorem pay3_apply (x0 : Vec Ideal S5000x128 .f32) (x1 : Vec Ideal S128x128 .f32) (p : Fin 5000) (j : Fin 128) :
    k3_pay1 x0 x1 (ix2 p j) = ∑ q : Fin 128, x0 (ix2 p q) * x1 (ix2 q j) := by
  simp only [k3_pay1, shapeCast_self]
  exact Cert.LibPlainDot.vmatmul_apply dot_S5000x128_S128x128_S5000x128_1_0_0_1_n_n (Cert.LibPlainDot.plainDot_plain 5000 128 128) _ _ p j

/-- At one entry the body's value is the host's product, when the block's row is the array's. -/
theorem point3 (x0 : Vec Ideal S5000x128 .f32) (x1 : Vec Ideal S128x128 .f32) (A : AF S50000x128) (B : AF S128x128)
    (y : S5000x128.Idx) (i : S50000x128.Idx) (hrow : ∀ q : Fin 128, x0 (ix2 (y 0) q) = A (ix2 (i 0) q)) (hx1 : x1 = B)
    (hj : (i 1).val = (y 1).val) :
    k3_pay1 x0 x1 y = proj A B i := by
  obtain ⟨p, j, rfl⟩ : ∃ (p : Fin 5000) (j : Fin 128), y = ix2 p j := ⟨y 0, y 1, eq_ix2 y⟩
  obtain ⟨P, j', rfl⟩ : ∃ (P : Fin 50000) (j' : Fin 128), i = ix2 P j' := ⟨i 0, i 1, eq_ix2 i⟩
  obtain rfl : j' = j := Fin.ext hj
  rw [pay3_apply, proj_apply, hx1]
  exact Finset.sum_congr rfl fun q _ => congrArg (· * B (ix2 q j')) (hrow q)

/-- What point t writes back is block t of X*W. -/
theorem flushed3_eq (c : Dev nD) (t : Fin cfg3.N) :
    (dat3 V c).flushed 2 t = ((cfg3.win 2).blk t).view.read (Elt Ideal) (proj (V c main_v40) (V c main_arg4)) := by
  show (cfg3.win 2).cut (grid3.coords t) ((dat3 V c).after 2 t) = _
  rw [after3_2]
  unfold out3_2
  rw [View.canon_unit_zero hz2]
  simp only [View.ld_unit_zero (S := S5000x128) hz2, View.ld_unit_zero (S := S128x128) hz2]
  obtain ⟨-, -, -, -, e4, e5⟩ := idx3 t
  funext y
  show k3_pay1 (iblk3 V c 0 t) (iblk3 V c 1 t) y = proj (V c main_v40) (V c main_arg4) (((cfg3.win 2).blk t).view.emb y)
  have hP : ((((cfg3.win 2).blk t).view.emb y) 0).val = t.val * 5000 + (y 0).val := by
    show win3_2.index t (0 : Fin 2) * 5000 + 1 * (y 0).val = _; rw [e4]; omega
  have hj : ((((cfg3.win 2).blk t).view.emb y) 1).val = (y 1).val := by
    show win3_2.index t (1 : Fin 2) * 128 + 1 * (y 1).val = _; rw [e5]; omega
  exact point3 (iblk3 V c 0 t) (iblk3 V c 1 t) (V c main_v40) (V c main_arg4) y (((cfg3.win 2).blk t).view.emb y)
    (fun q => iblk3_0_apply V c t (ix2 (y 0) q) (ix2 ((((cfg3.win 2).blk t).view.emb y) 0) q) hP rfl) (iblk3_1_eq V c t) hj

/-- An index is in point t's block iff each coordinate is in the block's range. -/
theorem mem_blk3 (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v41).slice (win3_2.rect t)).set ↔ _
  rw [View.set_slice_whole, Rect.mem_set_unit]
  exact Iff.rfl

/-- Row r lies in the block of point r / 5000. -/
theorem cover3 (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  have hN : cfg3.N = 10 := N_3
  have ht : (i 0).val / 5000 < cfg3.N := by rw [hN]; omega
  obtain ⟨-, -, -, -, e4, e5⟩ := idx3 ⟨(i 0).val / 5000, ht⟩
  refine ⟨⟨(i 0).val / 5000, ht⟩, flush3_2 _, ?_⟩
  rw [mem_blk3]
  intro a
  match a with
  | ⟨0, _⟩ =>
    show win3_2.index ⟨(i 0).val / 5000, ht⟩ (0 : Fin 2) * 5000 ≤ (i 0).val ∧ (i 0).val < win3_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win3_2.index ⟨(i 0).val / 5000, ht⟩ (1 : Fin 2) * 128 ≤ (i 1).val ∧ (i 1).val < win3_2.index ⟨(i 0).val / 5000, ht⟩ (1 : Fin 2) * 128 + 128
    rw [e5]; omega

/-- The array after region 3: X*W of the arrays the region found. -/
theorem final3 (c : Dev nD) : (dat3 V c).arrAt 2 cfg3.N = proj (V c main_v40) (V c main_arg4) :=
  (dat3 V c).arrAt_eq_of_cover 2 _ (fun t _ => flushed3_eq V c t) (cover3)

end Cert.KernelIdeal.RegionMatmul

end
-- ==== Proof.RegionScale.lean ====
/-
  The two scaling regions of the kernel, read as whole-array functions.

  Each region multiplies a block of 5000 rows of gathered messages by the matching 5000 entries of the weight column,
  repeated along the 128 features; 130 blocks tile the 650000 pairs.  The array the region leaves is the messages
  times the weight column repeated along the features, entry by entry.
-/
import proofs.«134347_j19172734010019_1_alg».proof.Proof.SpecRead
import proofs.«134347_j19172734010019_1_alg».proof.Proof.KernelIdealFrameP
import Idealize.ShloMosaic.Lib.Pipeline.Value
import Idealize.ShloMosaic.Lib.ValueIdx
import Idealize.ShloMosaic.Lib.ValueLayout

set_option maxRecDepth 16384

noncomputable section

namespace Cert.KernelIdeal.RegionScale

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP Cert.Spec Cert.SpecRead

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-! ## Region 1: each row of messages times its pair's weight, 130 blocks of 5000 pairs -/

/-- The printed index maps over the grid: the blocks of the messages, of the weight column and of the output all move
    with the point. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- Block t of the messages is its rows 5000 t … 5000 t + 4999. -/
theorem iblk1_0_apply (c : Dev nD) (t : Fin cfg1.N) (y : S5000x128.Idx) (i : S650000x128.Idx)
    (h0 : (i 0).val = t.val * 5000 + (y 0).val) (h1 : (i 1).val = (y 1).val) :
    (iblk1 V c 0 t : Vec Ideal S5000x128 .f32) y = (V c main_v35 : Vec Ideal S650000x128 .f32) i := by
  obtain ⟨e0, e1, -, -, -, -⟩ := idx1 t
  unfold iblk1
  rw [View.read_apply]
  show V c main_v35 _ = V c main_v35 _
  congr 1
  funext a
  apply Fin.ext
  match a with
  | ⟨0, _⟩ => show win1_0.index t (0 : Fin 2) * 5000 + 1 * (y 0).val = (i 0).val; rw [e0, h0]; omega
  | ⟨1, _⟩ => show win1_0.index t (1 : Fin 2) * 128 + 1 * (y 1).val = (i 1).val; rw [e1, h1]; omega

/-- Block t of the weight column is its rows 5000 t … 5000 t + 4999. -/
theorem iblk1_1_apply (c : Dev nD) (t : Fin cfg1.N) (y : S5000x1.Idx) (i : S650000x1.Idx)
    (h0 : (i 0).val = t.val * 5000 + (y 0).val) (h1 : (i 1).val = (y 1).val) :
    (iblk1 V c 1 t : Vec Ideal S5000x1 .f32) y = (V c main_v27 : Vec Ideal S650000x1 .f32) i := by
  obtain ⟨-, -, e2, e3, -, -⟩ := idx1 t
  unfold iblk1
  rw [View.read_apply]
  show V c main_v27 _ = V c main_v27 _
  congr 1
  funext a
  apply Fin.ext
  match a with
  | ⟨0, _⟩ => show win1_1.index t (0 : Fin 2) * 5000 + 1 * (y 0).val = (i 0).val; rw [e2, h0]; omega
  | ⟨1, _⟩ => show win1_1.index t (1 : Fin 2) * 1 + 1 * (y 1).val = (i 1).val; rw [e3, h1]; omega

/-- The body's value at an entry of the block: the message times the weight of its row. -/
theorem pay1_apply (x0 : Vec Ideal S5000x128 .f32) (x1 : Vec Ideal S5000x1 .f32) (p : Fin 5000) (j : Fin 128) :
    k1_pay1 x0 x1 (ix2 p j) = x0 (ix2 p j) * x1 (ix2 p (0 : Fin 1)) := by
  simp only [k1_pay1, mulf_apply, shapeCast_self, Cert.LibKeepdims.broadcastTo_a1_ab_apply]

/-- At one entry the body's value is the host's scaled message, when the block's entries are the arrays'. -/
theorem point1 (x0 : Vec Ideal S5000x128 .f32) (x1 : Vec Ideal S5000x1 .f32) (H : AF S650000x128) (N1 : AF S650000x1)
    (y : S5000x128.Idx) (i : S650000x128.Idx) (hx0 : x0 y = H i)
    (hx1 : x1 (ix2 (y 0) (0 : Fin 1)) = N1 (ix2 (i 0) (0 : Fin 1))) (hj : (i 1).val = (y 1).val) :
    k1_pay1 x0 x1 y = mulf (F := Ideal) H (spread N1) i := by
  obtain ⟨p, j, rfl⟩ : ∃ (p : Fin 5000) (j : Fin 128), y = ix2 p j := ⟨y 0, y 1, eq_ix2 y⟩
  obtain ⟨P, j', rfl⟩ : ∃ (P : Fin 650000) (j' : Fin 128), i = ix2 P j' := ⟨i 0, i 1, eq_ix2 i⟩
  obtain rfl : j' = j := Fin.ext hj
  rw [pay1_apply, scale_apply, hx0]
  exact congrArg (H (ix2 P j') * ·) hx1

/-- What point t writes back is block t of the scaled messages. -/
theorem flushed1_eq (c : Dev nD) (t : Fin cfg1.N) :
    (dat1 V c).flushed 2 t = ((cfg1.win 2).blk t).view.read (Elt Ideal)
      (mulf (F := Ideal) (V c main_v35) (spread (V c main_v27))) := by
  show (cfg1.win 2).cut (grid1.coords t) ((dat1 V c).after 2 t) = _
  rw [after1_2]
  unfold out1_2
  rw [View.canon_unit_zero hz2]
  simp only [View.ld_unit_zero (S := S5000x128) hz2, View.ld_unit_zero (S := S5000x1) hz2]
  obtain ⟨-, -, -, -, e4, e5⟩ := idx1 t
  funext y
  show k1_pay1 (iblk1 V c 0 t) (iblk1 V c 1 t) y
    = mulf (F := Ideal) (V c main_v35) (spread (V c main_v27)) (((cfg1.win 2).blk t).view.emb y)
  have hP : ((((cfg1.win 2).blk t).view.emb y) 0).val = t.val * 5000 + (y 0).val := by
    show win1_2.index t (0 : Fin 2) * 5000 + 1 * (y 0).val = _; rw [e4]; omega
  have hj : ((((cfg1.win 2).blk t).view.emb y) 1).val = (y 1).val := by
    show win1_2.index t (1 : Fin 2) * 128 + 1 * (y 1).val = _; rw [e5]; omega
  exact point1 (iblk1 V c 0 t) (iblk1 V c 1 t) (V c main_v35) (V c main_v27) y (((cfg1.win 2).blk t).view.emb y)
    (iblk1_0_apply V c t y (((cfg1.win 2).blk t).view.emb y) hP hj)
    (iblk1_1_apply V c t (ix2 (y 0) (0 : Fin 1)) (ix2 ((((cfg1.win 2).blk t).view.emb y) 0) (0 : Fin 1)) hP rfl) hj

/-- An index is in point t's block iff each coordinate is in the block's range. -/
theorem mem_blk1 (t : Fin cfg1.N) (i : S650000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v36).slice (win1_2.rect t)).set ↔ _
  rw [View.set_slice_whole, Rect.mem_set_unit]
  exact Iff.rfl

/-- Pair e lies in the block of point e / 5000. -/
theorem cover1 (i : S650000x128.Idx) :
    ∃ t : Fin cfg1.N, (cfg1.win 2).flush t = true ∧ i ∈ ((cfg1.win 2).blk t).view.set := by
  have hi0 : (i 0).val < 650000 := (i 0).isLt
  have hi1 : (i 1).val < 128 := (i 1).isLt
  have hN : cfg1.N = 130 := N_1
  have ht : (i 0).val / 5000 < cfg1.N := by rw [hN]; omega
  obtain ⟨-, -, -, -, e4, e5⟩ := idx1 ⟨(i 0).val / 5000, ht⟩
  refine ⟨⟨(i 0).val / 5000, ht⟩, flush1_2 _, ?_⟩
  rw [mem_blk1]
  intro a
  match a with
  | ⟨0, _⟩ =>
    show win1_2.index ⟨(i 0).val / 5000, ht⟩ (0 : Fin 2) * 5000 ≤ (i 0).val ∧ (i 0).val < win1_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win1_2.index ⟨(i 0).val / 5000, ht⟩ (1 : Fin 2) * 128 ≤ (i 1).val ∧ (i 1).val < win1_2.index ⟨(i 0).val / 5000, ht⟩ (1 : Fin 2) * 128 + 128
    rw [e5]; omega

/-- The array after region 1: the messages scaled by the weight column, of the arrays the region found. -/
theorem final1 (c : Dev nD) :
    (dat1 V c).arrAt 2 cfg1.N = mulf (F := Ideal) (V c main_v35) (spread (V c main_v27)) :=
  (dat1 V c).arrAt_eq_of_cover 2 _ (fun t _ => flushed1_eq V c t) (cover1)

/-! ## Region 4: each row of messages times its pair's weight, 130 blocks of 5000 pairs -/

/-- The printed index maps over the grid: the blocks of the messages, of the weight column and of the output all move
    with the point. -/
theorem idx4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- Block t of the messages is its rows 5000 t … 5000 t + 4999. -/
theorem iblk4_0_apply (c : Dev nD) (t : Fin cfg4.N) (y : S5000x128.Idx) (i : S650000x128.Idx)
    (h0 : (i 0).val = t.val * 5000 + (y 0).val) (h1 : (i 1).val = (y 1).val) :
    (iblk4 V c 0 t : Vec Ideal S5000x128 .f32) y = (V c main_v48 : Vec Ideal S650000x128 .f32) i := by
  obtain ⟨e0, e1, -, -, -, -⟩ := idx4 t
  unfold iblk4
  rw [View.read_apply]
  show V c main_v48 _ = V c main_v48 _
  congr 1
  funext a
  apply Fin.ext
  match a with
  | ⟨0, _⟩ => show win4_0.index t (0 : Fin 2) * 5000 + 1 * (y 0).val = (i 0).val; rw [e0, h0]; omega
  | ⟨1, _⟩ => show win4_0.index t (1 : Fin 2) * 128 + 1 * (y 1).val = (i 1).val; rw [e1, h1]; omega

/-- Block t of the weight column is its rows 5000 t … 5000 t + 4999. -/
theorem iblk4_1_apply (c : Dev nD) (t : Fin cfg4.N) (y : S5000x1.Idx) (i : S650000x1.Idx)
    (h0 : (i 0).val = t.val * 5000 + (y 0).val) (h1 : (i 1).val = (y 1).val) :
    (iblk4 V c 1 t : Vec Ideal S5000x1 .f32) y = (V c main_v27 : Vec Ideal S650000x1 .f32) i := by
  obtain ⟨-, -, e2, e3, -, -⟩ := idx4 t
  unfold iblk4
  rw [View.read_apply]
  show V c main_v27 _ = V c main_v27 _
  congr 1
  funext a
  apply Fin.ext
  match a with
  | ⟨0, _⟩ => show win4_1.index t (0 : Fin 2) * 5000 + 1 * (y 0).val = (i 0).val; rw [e2, h0]; omega
  | ⟨1, _⟩ => show win4_1.index t (1 : Fin 2) * 1 + 1 * (y 1).val = (i 1).val; rw [e3, h1]; omega

/-- The body's value at an entry of the block: the message times the weight of its row. -/
theorem pay4_apply (x0 : Vec Ideal S5000x128 .f32) (x1 : Vec Ideal S5000x1 .f32) (p : Fin 5000) (j : Fin 128) :
    k4_pay1 x0 x1 (ix2 p j) = x0 (ix2 p j) * x1 (ix2 p (0 : Fin 1)) := by
  simp only [k4_pay1, mulf_apply, shapeCast_self, Cert.LibKeepdims.broadcastTo_a1_ab_apply]

/-- At one entry the body's value is the host's scaled message, when the block's entries are the arrays'. -/
theorem point4 (x0 : Vec Ideal S5000x128 .f32) (x1 : Vec Ideal S5000x1 .f32) (H : AF S650000x128) (N1 : AF S650000x1)
    (y : S5000x128.Idx) (i : S650000x128.Idx) (hx0 : x0 y = H i)
    (hx1 : x1 (ix2 (y 0) (0 : Fin 1)) = N1 (ix2 (i 0) (0 : Fin 1))) (hj : (i 1).val = (y 1).val) :
    k4_pay1 x0 x1 y = mulf (F := Ideal) H (spread N1) i := by
  obtain ⟨p, j, rfl⟩ : ∃ (p : Fin 5000) (j : Fin 128), y = ix2 p j := ⟨y 0, y 1, eq_ix2 y⟩
  obtain ⟨P, j', rfl⟩ : ∃ (P : Fin 650000) (j' : Fin 128), i = ix2 P j' := ⟨i 0, i 1, eq_ix2 i⟩
  obtain rfl : j' = j := Fin.ext hj
  rw [pay4_apply, scale_apply, hx0]
  exact congrArg (H (ix2 P j') * ·) hx1

/-- What point t writes back is block t of the scaled messages. -/
theorem flushed4_eq (c : Dev nD) (t : Fin cfg4.N) :
    (dat4 V c).flushed 2 t = ((cfg4.win 2).blk t).view.read (Elt Ideal)
      (mulf (F := Ideal) (V c main_v48) (spread (V c main_v27))) := by
  show (cfg4.win 2).cut (grid4.coords t) ((dat4 V c).after 2 t) = _
  rw [after4_2]
  unfold out4_2
  rw [View.canon_unit_zero hz2]
  simp only [View.ld_unit_zero (S := S5000x128) hz2, View.ld_unit_zero (S := S5000x1) hz2]
  obtain ⟨-, -, -, -, e4, e5⟩ := idx4 t
  funext y
  show k4_pay1 (iblk4 V c 0 t) (iblk4 V c 1 t) y
    = mulf (F := Ideal) (V c main_v48) (spread (V c main_v27)) (((cfg4.win 2).blk t).view.emb y)
  have hP : ((((cfg4.win 2).blk t).view.emb y) 0).val = t.val * 5000 + (y 0).val := by
    show win4_2.index t (0 : Fin 2) * 5000 + 1 * (y 0).val = _; rw [e4]; omega
  have hj : ((((cfg4.win 2).blk t).view.emb y) 1).val = (y 1).val := by
    show win4_2.index t (1 : Fin 2) * 128 + 1 * (y 1).val = _; rw [e5]; omega
  exact point4 (iblk4 V c 0 t) (iblk4 V c 1 t) (V c main_v48) (V c main_v27) y (((cfg4.win 2).blk t).view.emb y)
    (iblk4_0_apply V c t y (((cfg4.win 2).blk t).view.emb y) hP hj)
    (iblk4_1_apply V c t (ix2 (y 0) (0 : Fin 1)) (ix2 ((((cfg4.win 2).blk t).view.emb y) 0) (0 : Fin 1)) hP rfl) hj

/-- An index is in point t's block iff each coordinate is in the block's range. -/
theorem mem_blk4 (t : Fin cfg4.N) (i : S650000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v49).slice (win4_2.rect t)).set ↔ _
  rw [View.set_slice_whole, Rect.mem_set_unit]
  exact Iff.rfl

/-- Pair e lies in the block of point e / 5000. -/
theorem cover4 (i : S650000x128.Idx) :
    ∃ t : Fin cfg4.N, (cfg4.win 2).flush t = true ∧ i ∈ ((cfg4.win 2).blk t).view.set := by
  have hi0 : (i 0).val < 650000 := (i 0).isLt
  have hi1 : (i 1).val < 128 := (i 1).isLt
  have hN : cfg4.N = 130 := N_4
  have ht : (i 0).val / 5000 < cfg4.N := by rw [hN]; omega
  obtain ⟨-, -, -, -, e4, e5⟩ := idx4 ⟨(i 0).val / 5000, ht⟩
  refine ⟨⟨(i 0).val / 5000, ht⟩, flush4_2 _, ?_⟩
  rw [mem_blk4]
  intro a
  match a with
  | ⟨0, _⟩ =>
    show win4_2.index ⟨(i 0).val / 5000, ht⟩ (0 : Fin 2) * 5000 ≤ (i 0).val ∧ (i 0).val < win4_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win4_2.index ⟨(i 0).val / 5000, ht⟩ (1 : Fin 2) * 128 ≤ (i 1).val ∧ (i 1).val < win4_2.index ⟨(i 0).val / 5000, ht⟩ (1 : Fin 2) * 128 + 128
    rw [e5]; omega

/-- The array after region 4: the messages scaled by the weight column, of the arrays the region found. -/
theorem final4 (c : Dev nD) :
    (dat4 V c).arrAt 2 cfg4.N = mulf (F := Ideal) (V c main_v48) (spread (V c main_v27)) :=
  (dat4 V c).arrAt_eq_of_cover 2 _ (fun t _ => flushed4_eq V c t) (cover4)

end Cert.KernelIdeal.RegionScale

end
-- ==== Proof.RegionBiasRelu.lean ====
/-
  The bias-and-rectify regions of the kernel, read as whole-array functions.

  Each of the two regions adds the bias row to a block of 5000 rows of the aggregated messages and takes the maximum
  with zero; ten blocks tile the 50000 rows.  What a point writes back is its block of max(agg + bias, 0), the blocks
  cover the array, so the array the region leaves is max(agg + bias, 0) of the arrays it found — the host's own
  operations of the reference, entry by entry.
-/
import proofs.«134347_j19172734010019_1_alg».proof.Proof.SpecRead
import proofs.«134347_j19172734010019_1_alg».proof.Proof.KernelIdealFrameP
import Idealize.ShloMosaic.Lib.Pipeline.Value
import Idealize.ShloMosaic.Lib.ValueIdx
import Idealize.ShloMosaic.Lib.ValueLayout

set_option maxRecDepth 16384

noncomputable section

namespace Cert.KernelIdeal.RegionBiasRelu

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP Cert.Spec Cert.SpecRead

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-! ## Region 2: max(agg + bias, 0), ten blocks of 5000 rows -/

/-- The printed index maps over the grid: the row blocks of the input and of the output move with the point; the bias is one block. -/
theorem idx2 : ∀ t : Fin cfg2.N, win2_0.index t (0 : Fin 2) = t.val ∧ win2_0.index t (1 : Fin 2) = 0
    ∧ win2_1.index t (0 : Fin 1) = 0
    ∧ win2_2.index t (0 : Fin 2) = t.val ∧ win2_2.index t (1 : Fin 2) = 0 :=
  (by decide +kernel : ∀ t : Fin grid2.N, _)

/-- Block t of the aggregated array is its rows 5000 t … 5000 t + 4999. -/
theorem iblk2_0_apply (c : Dev nD) (t : Fin cfg2.N) (y : S5000x128.Idx) (i : S50000x128.Idx)
    (h0 : (i 0).val = t.val * 5000 + (y 0).val) (h1 : (i 1).val = (y 1).val) :
    (iblk2 V c 0 t : Vec Ideal S5000x128 .f32) y = (V c main_v39 : Vec Ideal S50000x128 .f32) i := by
  obtain ⟨e0, e1, -, -, -⟩ := idx2 t
  unfold iblk2
  rw [View.read_apply]
  show V c main_v39 _ = V c main_v39 _
  congr 1
  funext a
  apply Fin.ext
  match a with
  | ⟨0, _⟩ => show win2_0.index t (0 : Fin 2) * 5000 + 1 * (y 0).val = (i 0).val; rw [e0, h0]; omega
  | ⟨1, _⟩ => show win2_0.index t (1 : Fin 2) * 128 + 1 * (y 1).val = (i 1).val; rw [e1, h1]; omega

/-- The bias window's one block is the bias. -/
theorem iblk2_1_eq (c : Dev nD) (t : Fin cfg2.N) :
    (iblk2 V c 1 t : Vec Ideal S128 .f32) = (V c main_arg3 : Vec Ideal S128 .f32) := by
  obtain ⟨-, -, e2, -, -⟩ := idx2 t
  funext y
  unfold iblk2
  rw [View.read_apply]
  show V c main_arg3 _ = V c main_arg3 _
  congr 1
  funext a
  apply Fin.ext
  match a with
  | ⟨0, _⟩ => show win2_1.index t (0 : Fin 1) * 128 + 1 * (y 0).val = (y 0).val; rw [e2]; omega

/-- The body's value at an entry of the block. -/
theorem pay2_apply (x0 : Vec Ideal S5000x128 .f32) (x1 : Vec Ideal S128 .f32) (p : Fin 5000) (j : Fin 128) :
    k2_pay1 x0 x1 (ix2 p j) = max (x0 (ix2 p j) + x1 (ix1 j)) (Ideal.ofBits .f32 0x00000000#32) := by
  simp only [k2_pay1, maximumf_apply, addf_apply, shapeCast_self, broadcast_apply, Cert.LibPlainDot.rowBias_apply]
  rfl

/-- At one entry the body's value is the host's max(agg + bias, 0), when the block's entry is the array's. -/
theorem point2 (x0 : Vec Ideal S5000x128 .f32) (x1 : Vec Ideal S128 .f32) (A : AF S50000x128) (B : AF S128)
    (y : S5000x128.Idx) (i : S50000x128.Idx) (hx0 : x0 y = A i) (hx1 : x1 = B) (hj : (i 1).val = (y 1).val) :
    k2_pay1 x0 x1 y = relu (addf (F := Ideal) A (rowBias B)) i := by
  obtain ⟨p, j, rfl⟩ : ∃ (p : Fin 5000) (j : Fin 128), y = ix2 p j := ⟨y 0, y 1, eq_ix2 y⟩
  obtain ⟨P, j', rfl⟩ : ∃ (P : Fin 50000) (j' : Fin 128), i = ix2 P j' := ⟨i 0, i 1, eq_ix2 i⟩
  obtain rfl : j' = j := Fin.ext hj
  rw [pay2_apply, relu_bias_apply, hx0, hx1]

/-- What point t writes back is block t of max(agg + bias, 0). -/
theorem flushed2_eq (c : Dev nD) (t : Fin cfg2.N) :
    (dat2 V c).flushed 2 t = ((cfg2.win 2).blk t).view.read (Elt Ideal)
      (relu (addf (F := Ideal) (V c main_v39) (rowBias (V c main_arg3)))) := by
  show (cfg2.win 2).cut (grid2.coords t) ((dat2 V c).after 2 t) = _
  rw [after2_2]
  unfold out2_2
  rw [View.canon_unit_zero hz2]
  simp only [View.ld_unit_zero (S := S5000x128) hz2, View.ld_unit_zero (S := S128) hz1]
  obtain ⟨-, -, -, e3, e4⟩ := idx2 t
  funext y
  show k2_pay1 (iblk2 V c 0 t) (iblk2 V c 1 t) y
    = relu (addf (F := Ideal) (V c main_v39) (rowBias (V c main_arg3))) (((cfg2.win 2).blk t).view.emb y)
  have hP : ((((cfg2.win 2).blk t).view.emb y) 0).val = t.val * 5000 + (y 0).val := by
    show win2_2.index t (0 : Fin 2) * 5000 + 1 * (y 0).val = _; rw [e3]; omega
  have hj : ((((cfg2.win 2).blk t).view.emb y) 1).val = (y 1).val := by
    show win2_2.index t (1 : Fin 2) * 128 + 1 * (y 1).val = _; rw [e4]; omega
  exact point2 (iblk2 V c 0 t) (iblk2 V c 1 t) (V c main_v39) (V c main_arg3) y (((cfg2.win 2).blk t).view.emb y)
    (iblk2_0_apply V c t y (((cfg2.win 2).blk t).view.emb y) hP hj) (iblk2_1_eq V c t) hj

/-- An index is in point t's block iff each coordinate is in the block's range. -/
theorem mem_blk2 (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v40).slice (win2_2.rect t)).set ↔ _
  rw [View.set_slice_whole, Rect.mem_set_unit]
  exact Iff.rfl

/-- Row r lies in the block of point r / 5000. -/
theorem cover2 (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 10 := N_2
  have ht : (i 0).val / 5000 < cfg2.N := by rw [hN]; omega
  obtain ⟨-, -, -, e3, e4⟩ := idx2 ⟨(i 0).val / 5000, ht⟩
  refine ⟨⟨(i 0).val / 5000, ht⟩, flush2_2 _, ?_⟩
  rw [mem_blk2]
  intro a
  match a with
  | ⟨0, _⟩ =>
    show win2_2.index ⟨(i 0).val / 5000, ht⟩ (0 : Fin 2) * 5000 ≤ (i 0).val ∧ (i 0).val < win2_2.index ⟨(i 0).val / 5000, ht⟩ (0 : Fin 2) * 5000 + 5000
    rw [e3]; show (i 0).val / 5000 * 5000 ≤ (i 0).val ∧ (i 0).val < (i 0).val / 5000 * 5000 + 5000; omega
  | ⟨1, _⟩ =>
    show win2_2.index ⟨(i 0).val / 5000, ht⟩ (1 : Fin 2) * 128 ≤ (i 1).val ∧ (i 1).val < win2_2.index ⟨(i 0).val / 5000, ht⟩ (1 : Fin 2) * 128 + 128
    rw [e4]; omega

/-- The array after region 2: max(agg + bias, 0) of the arrays the region found. -/
theorem final2 (c : Dev nD) :
    (dat2 V c).arrAt 2 cfg2.N = relu (addf (F := Ideal) (V c main_v39) (rowBias (V c main_arg3))) :=
  (dat2 V c).arrAt_eq_of_cover 2 _ (fun t _ => flushed2_eq V c t) (cover2)

/-! ## Region 5: max(agg + bias, 0), ten blocks of 5000 rows -/

/-- The printed index maps over the grid: the row blocks of the input and of the output move with the point; the bias is one block. -/
theorem idx5 : ∀ t : Fin cfg5.N, win5_0.index t (0 : Fin 2) = t.val ∧ win5_0.index t (1 : Fin 2) = 0
    ∧ win5_1.index t (0 : Fin 1) = 0
    ∧ win5_2.index t (0 : Fin 2) = t.val ∧ win5_2.index t (1 : Fin 2) = 0 :=
  (by decide +kernel : ∀ t : Fin grid5.N, _)

/-- Block t of the aggregated array is its rows 5000 t … 5000 t + 4999. -/
theorem iblk5_0_apply (c : Dev nD) (t : Fin cfg5.N) (y : S5000x128.Idx) (i : S50000x128.Idx)
    (h0 : (i 0).val = t.val * 5000 + (y 0).val) (h1 : (i 1).val = (y 1).val) :
    (iblk5 V c 0 t : Vec Ideal S5000x128 .f32) y = (V c main_v52 : Vec Ideal S50000x128 .f32) i := by
  obtain ⟨e0, e1, -, -, -⟩ := idx5 t
  unfold iblk5
  rw [View.read_apply]
  show V c main_v52 _ = V c main_v52 _
  congr 1
  funext a
  apply Fin.ext
  match a with
  | ⟨0, _⟩ => show win5_0.index t (0 : Fin 2) * 5000 + 1 * (y 0).val = (i 0).val; rw [e0, h0]; omega
  | ⟨1, _⟩ => show win5_0.index t (1 : Fin 2) * 128 + 1 * (y 1).val = (i 1).val; rw [e1, h1]; omega

/-- The bias window's one block is the bias. -/
theorem iblk5_1_eq (c : Dev nD) (t : Fin cfg5.N) :
    (iblk5 V c 1 t : Vec Ideal S128 .f32) = (V c main_arg5 : Vec Ideal S128 .f32) := by
  obtain ⟨-, -, e2, -, -⟩ := idx5 t
  funext y
  unfold iblk5
  rw [View.read_apply]
  show V c main_arg5 _ = V c main_arg5 _
  congr 1
  funext a
  apply Fin.ext
  match a with
  | ⟨0, _⟩ => show win5_1.index t (0 : Fin 1) * 128 + 1 * (y 0).val = (y 0).val; rw [e2]; omega

/-- The body's value at an entry of the block. -/
theorem pay5_apply (x0 : Vec Ideal S5000x128 .f32) (x1 : Vec Ideal S128 .f32) (p : Fin 5000) (j : Fin 128) :
    k5_pay1 x0 x1 (ix2 p j) = max (x0 (ix2 p j) + x1 (ix1 j)) (Ideal.ofBits .f32 0x00000000#32) := by
  simp only [k5_pay1, maximumf_apply, addf_apply, shapeCast_self, broadcast_apply, Cert.LibPlainDot.rowBias_apply]
  rfl

/-- At one entry the body's value is the host's max(agg + bias, 0), when the block's entry is the array's. -/
theorem point5 (x0 : Vec Ideal S5000x128 .f32) (x1 : Vec Ideal S128 .f32) (A : AF S50000x128) (B : AF S128)
    (y : S5000x128.Idx) (i : S50000x128.Idx) (hx0 : x0 y = A i) (hx1 : x1 = B) (hj : (i 1).val = (y 1).val) :
    k5_pay1 x0 x1 y = relu (addf (F := Ideal) A (rowBias B)) i := by
  obtain ⟨p, j, rfl⟩ : ∃ (p : Fin 5000) (j : Fin 128), y = ix2 p j := ⟨y 0, y 1, eq_ix2 y⟩
  obtain ⟨P, j', rfl⟩ : ∃ (P : Fin 50000) (j' : Fin 128), i = ix2 P j' := ⟨i 0, i 1, eq_ix2 i⟩
  obtain rfl : j' = j := Fin.ext hj
  rw [pay5_apply, relu_bias_apply, hx0, hx1]

/-- What point t writes back is block t of max(agg + bias, 0). -/
theorem flushed5_eq (c : Dev nD) (t : Fin cfg5.N) :
    (dat5 V c).flushed 2 t = ((cfg5.win 2).blk t).view.read (Elt Ideal)
      (relu (addf (F := Ideal) (V c main_v52) (rowBias (V c main_arg5)))) := by
  show (cfg5.win 2).cut (grid5.coords t) ((dat5 V c).after 2 t) = _
  rw [after5_2]
  unfold out5_2
  rw [View.canon_unit_zero hz2]
  simp only [View.ld_unit_zero (S := S5000x128) hz2, View.ld_unit_zero (S := S128) hz1]
  obtain ⟨-, -, -, e3, e4⟩ := idx5 t
  funext y
  show k5_pay1 (iblk5 V c 0 t) (iblk5 V c 1 t) y
    = relu (addf (F := Ideal) (V c main_v52) (rowBias (V c main_arg5))) (((cfg5.win 2).blk t).view.emb y)
  have hP : ((((cfg5.win 2).blk t).view.emb y) 0).val = t.val * 5000 + (y 0).val := by
    show win5_2.index t (0 : Fin 2) * 5000 + 1 * (y 0).val = _; rw [e3]; omega
  have hj : ((((cfg5.win 2).blk t).view.emb y) 1).val = (y 1).val := by
    show win5_2.index t (1 : Fin 2) * 128 + 1 * (y 1).val = _; rw [e4]; omega
  exact point5 (iblk5 V c 0 t) (iblk5 V c 1 t) (V c main_v52) (V c main_arg5) y (((cfg5.win 2).blk t).view.emb y)
    (iblk5_0_apply V c t y (((cfg5.win 2).blk t).view.emb y) hP hj) (iblk5_1_eq V c t) hj

/-- An index is in point t's block iff each coordinate is in the block's range. -/
theorem mem_blk5 (t : Fin cfg5.N) (i : S50000x128.Idx) :
    i ∈ ((cfg5.win 2).blk t).view.set ↔ ∀ a : Fin 2, win5_2.index t a * S5000x128.size a ≤ (i a).val ∧ (i a).val < win5_2.index t a * S5000x128.size a + S5000x128.size a := by
  show i ∈ ((View.whole main_v53).slice (win5_2.rect t)).set ↔ _
  rw [View.set_slice_whole, Rect.mem_set_unit]
  exact Iff.rfl

/-- Row r lies in the block of point r / 5000. -/
theorem cover5 (i : S50000x128.Idx) :
    ∃ t : Fin cfg5.N, (cfg5.win 2).flush t = true ∧ i ∈ ((cfg5.win 2).blk t).view.set := by
  have hi0 : (i 0).val < 50000 := (i 0).isLt
  have hi1 : (i 1).val < 128 := (i 1).isLt
  have hN : cfg5.N = 10 := N_5
  have ht : (i 0).val / 5000 < cfg5.N := by rw [hN]; omega
  obtain ⟨-, -, -, e3, e4⟩ := idx5 ⟨(i 0).val / 5000, ht⟩
  refine ⟨⟨(i 0).val / 5000, ht⟩, flush5_2 _, ?_⟩
  rw [mem_blk5]
  intro a
  match a with
  | ⟨0, _⟩ =>
    show win5_2.index ⟨(i 0).val / 5000, ht⟩ (0 : Fin 2) * 5000 ≤ (i 0).val ∧ (i 0).val < win5_2.index ⟨(i 0).val / 5000, ht⟩ (0 : Fin 2) * 5000 + 5000
    rw [e3]; show (i 0).val / 5000 * 5000 ≤ (i 0).val ∧ (i 0).val < (i 0).val / 5000 * 5000 + 5000; omega
  | ⟨1, _⟩ =>
    show win5_2.index ⟨(i 0).val / 5000, ht⟩ (1 : Fin 2) * 128 ≤ (i 1).val ∧ (i 1).val < win5_2.index ⟨(i 0).val / 5000, ht⟩ (1 : Fin 2) * 128 + 128
    rw [e4]; omega

/-- The array after region 5: max(agg + bias, 0) of the arrays the region found. -/
theorem final5 (c : Dev nD) :
    (dat5 V c).arrAt 2 cfg5.N = relu (addf (F := Ideal) (V c main_v52) (rowBias (V c main_arg5))) :=
  (dat5 V c).arrAt_eq_of_cover 2 _ (fun t _ => flushed5_eq V c t) (cover5)

end Cert.KernelIdeal.RegionBiasRelu

end
-- ==== Proof.RegionHead.lean ====
/-
  The head region of the kernel, read as a whole-array function.

  The region multiplies a block of 5000 rows of the hidden features by the whole 128 x 64 output weights into a zero
  accumulator and adds the output bias along the rows; ten blocks tile the 50000 rows, so the array the region leaves
  is H*Wo + bo of the arrays it found.
-/
import proofs.«134347_j19172734010019_1_alg».proof.Proof.SpecRead
import proofs.«134347_j19172734010019_1_alg».proof.Proof.KernelIdealFrameP
import Idealize.ShloMosaic.Lib.Pipeline.Value
import Idealize.ShloMosaic.Lib.ValueIdx
import Idealize.ShloMosaic.Lib.ValueLayout

set_option maxRecDepth 16384

noncomputable section

namespace Cert.KernelIdeal.RegionHead

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP Cert.Spec Cert.SpecRead

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-! ## Region 6: H*Wo + bo, ten blocks of 5000 rows -/

/-- The printed index maps over the grid: the row blocks of H and of the output move with the point; Wo and bo are one block each. -/
theorem idx6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 1) = 0
    ∧ win6_3.index t (0 : Fin 2) = t.val ∧ win6_3.index t (1 : Fin 2) = 0 :=
  (by decide +kernel : ∀ t : Fin grid6.N, _)

/-- Block t of H is its rows 5000 t … 5000 t + 4999. -/
theorem iblk6_0_apply (c : Dev nD) (t : Fin cfg6.N) (y : S5000x128.Idx) (i : S50000x128.Idx)
    (h0 : (i 0).val = t.val * 5000 + (y 0).val) (h1 : (i 1).val = (y 1).val) :
    (iblk6 V c 0 t : Vec Ideal S5000x128 .f32) y = (V c main_v53 : Vec Ideal S50000x128 .f32) i := by
  obtain ⟨e0, e1, -, -, -, -, -⟩ := idx6 t
  unfold iblk6
  rw [View.read_apply]
  show V c main_v53 _ = V c main_v53 _
  congr 1
  funext a
  apply Fin.ext
  match a with
  | ⟨0, _⟩ => show win6_0.index t (0 : Fin 2) * 5000 + 1 * (y 0).val = (i 0).val; rw [e0, h0]; omega
  | ⟨1, _⟩ => show win6_0.index t (1 : Fin 2) * 128 + 1 * (y 1).val = (i 1).val; rw [e1, h1]; omega

/-- The weight window's one block is Wo. -/
theorem iblk6_1_eq (c : Dev nD) (t : Fin cfg6.N) :
    (iblk6 V c 1 t : Vec Ideal S128x64 .f32) = (V c main_arg6 : Vec Ideal S128x64 .f32) := by
  obtain ⟨-, -, e2, e3, -, -, -⟩ := idx6 t
  funext y
  unfold iblk6
  rw [View.read_apply]
  show V c main_arg6 _ = V c main_arg6 _
  congr 1
  funext a
  apply Fin.ext
  match a with
  | ⟨0, _⟩ => show win6_1.index t (0 : Fin 2) * 128 + 1 * (y 0).val = (y 0).val; rw [e2]; omega
  | ⟨1, _⟩ => show win6_1.index t (1 : Fin 2) * 64 + 1 * (y 1).val = (y 1).val; rw [e3]; omega

/-- The bias window's one block is bo. -/
theorem iblk6_2_eq (c : Dev nD) (t : Fin cfg6.N) :
    (iblk6 V c 2 t : Vec Ideal S64 .f32) = (V c main_arg7 : Vec Ideal S64 .f32) := by
  obtain ⟨-, -, -, -, e4, -, -⟩ := idx6 t
  funext y
  unfold iblk6
  rw [View.read_apply]
  show V c main_arg7 _ = V c main_arg7 _
  congr 1
  funext a
  apply Fin.ext
  match a with
  | ⟨0, _⟩ => show win6_2.index t (0 : Fin 1) * 64 + 1 * (y 0).val = (y 0).val; rw [e4]; omega

/-- The body's value at an entry of the block: the row of the block times the column of Wo, plus the bias of the column. -/
theorem pay6_apply (x0 : Vec Ideal S5000x128 .f32) (x1 : Vec Ideal S128x64 .f32) (x2 : Vec Ideal S64 .f32) (p : Fin 5000) (j : Fin 64) :
    k6_pay1 x0 x1 x2 (ix2 p j) = (∑ q : Fin 128, x0 (ix2 p q) * x1 (ix2 q j)) + x2 (ix1 j) := by
  simp only [k6_pay1, addf_apply, shapeCast_self, Cert.LibPlainDot.rowBias_apply]
  exact congrArg (· + x2 (ix1 j))
    (Cert.LibPlainDot.vmatmul_apply dot_S5000x128_S128x64_S5000x64_1_0_0_1_n_n (Cert.LibPlainDot.plainDot_plain 5000 128 64) _ _ p j)

/-- At one entry the body's value is the host's affine head, when the block's row is the array's. -/
theorem point6 (x0 : Vec Ideal S5000x128 .f32) (x1 : Vec Ideal S128x64 .f32) (x2 : Vec Ideal S64 .f32)
    (A : AF S50000x128) (B : AF S128x64) (C : AF S64)
    (y : S5000x64.Idx) (i : S50000x64.Idx) (hrow : ∀ q : Fin 128, x0 (ix2 (y 0) q) = A (ix2 (i 0) q)) (hx1 : x1 = B) (hx2 : x2 = C)
    (hj : (i 1).val = (y 1).val) :
    k6_pay1 x0 x1 x2 y = head A B C i := by
  obtain ⟨p, j, rfl⟩ : ∃ (p : Fin 5000) (j : Fin 64), y = ix2 p j := ⟨y 0, y 1, eq_ix2 y⟩
  obtain ⟨P, j', rfl⟩ : ∃ (P : Fin 50000) (j' : Fin 64), i = ix2 P j' := ⟨i 0, i 1, eq_ix2 i⟩
  obtain rfl : j' = j := Fin.ext hj
  rw [pay6_apply, head_apply, hx1, hx2]
  exact congrArg (· + C (ix1 j')) (Finset.sum_congr rfl fun q _ => congrArg (· * B (ix2 q j')) (hrow q))

/-- What point t writes back is block t of H*Wo + bo. -/
theorem flushed6_eq (c : Dev nD) (t : Fin cfg6.N) :
    (dat6 V c).flushed 3 t = ((cfg6.win 3).blk t).view.read (Elt Ideal) (head (V c main_v53) (V c main_arg6) (V c main_arg7)) := by
  show (cfg6.win 3).cut (grid6.coords t) ((dat6 V c).after 3 t) = _
  rw [after6_3]
  unfold out6_3
  rw [View.canon_unit_zero hz2]
  simp only [View.ld_unit_zero (S := S5000x128) hz2, View.ld_unit_zero (S := S128x64) hz2, View.ld_unit_zero (S := S64) hz1]
  obtain ⟨-, -, -, -, -, e5, e6⟩ := idx6 t
  funext y
  show k6_pay1 (iblk6 V c 0 t) (iblk6 V c 1 t) (iblk6 V c 2 t) y
    = head (V c main_v53) (V c main_arg6) (V c main_arg7) (((cfg6.win 3).blk t).view.emb y)
  have hP : ((((cfg6.win 3).blk t).view.emb y) 0).val = t.val * 5000 + (y 0).val := by
    show win6_3.index t (0 : Fin 2) * 5000 + 1 * (y 0).val = _; rw [e5]; omega
  have hj : ((((cfg6.win 3).blk t).view.emb y) 1).val = (y 1).val := by
    show win6_3.index t (1 : Fin 2) * 64 + 1 * (y 1).val = _; rw [e6]; omega
  exact point6 (iblk6 V c 0 t) (iblk6 V c 1 t) (iblk6 V c 2 t) (V c main_v53) (V c main_arg6) (V c main_arg7) y (((cfg6.win 3).blk t).view.emb y)
    (fun q => iblk6_0_apply V c t (ix2 (y 0) q) (ix2 ((((cfg6.win 3).blk t).view.emb y) 0) q) hP rfl)
    (iblk6_1_eq V c t) (iblk6_2_eq V c t) hj

/-- An index is in point t's block iff each coordinate is in the block's range. -/
theorem mem_blk6 (t : Fin cfg6.N) (i : S50000x64.Idx) :
    i ∈ ((cfg6.win 3).blk t).view.set ↔ ∀ a : Fin 2, win6_3.index t a * S5000x64.size a ≤ (i a).val ∧ (i a).val < win6_3.index t a * S5000x64.size a + S5000x64.size a := by
  show i ∈ ((View.whole main_v54).slice (win6_3.rect t)).set ↔ _
  rw [View.set_slice_whole, Rect.mem_set_unit]
  exact Iff.rfl

/-- Row r lies in the block of point r / 5000. -/
theorem cover6 (i : S50000x64.Idx) :
    ∃ t : Fin cfg6.N, (cfg6.win 3).flush t = true ∧ i ∈ ((cfg6.win 3).blk t).view.set := by
  have hi0 : (i 0).val < 50000 := (i 0).isLt
  have hi1 : (i 1).val < 64 := (i 1).isLt
  have hN : cfg6.N = 10 := N_6
  have ht : (i 0).val / 5000 < cfg6.N := by rw [hN]; omega
  obtain ⟨-, -, -, -, -, e5, e6⟩ := idx6 ⟨(i 0).val / 5000, ht⟩
  refine ⟨⟨(i 0).val / 5000, ht⟩, flush6_3 _, ?_⟩
  rw [mem_blk6]
  intro a
  match a with
  | ⟨0, _⟩ =>
    show win6_3.index ⟨(i 0).val / 5000, ht⟩ (0 : Fin 2) * 5000 ≤ (i 0).val ∧ (i 0).val < win6_3.index ⟨(i 0).val / 5000, ht⟩ (0 : Fin 2) * 5000 + 5000
    rw [e5]; show (i 0).val / 5000 * 5000 ≤ (i 0).val ∧ (i 0).val < (i 0).val / 5000 * 5000 + 5000; omega
  | ⟨1, _⟩ =>
    show win6_3.index ⟨(i 0).val / 5000, ht⟩ (1 : Fin 2) * 64 ≤ (i 1).val ∧ (i 1).val < win6_3.index ⟨(i 0).val / 5000, ht⟩ (1 : Fin 2) * 64 + 64
    rw [e6]; omega

/-- The array after region 6: H*Wo + bo of the arrays the region found. -/
theorem final6 (c : Dev nD) : (dat6 V c).arrAt 3 cfg6.N = head (V c main_v53) (V c main_arg6) (V c main_arg7) :=
  (dat6 V c).arrAt_eq_of_cover 3 _ (fun t _ => flushed6_eq V c t) (cover6)

end Cert.KernelIdeal.RegionHead

end
-- ==== Proof.KernelValue.lean ====
/-
  What the idealized kernel's result buffer holds after the run: the network of the launch contents of the arguments.

  The buffers' contents at the twelve segment boundaries are followed from the launch memory.  A host stretch leaves
  each of its results at its operation of what the stretch found and every other buffer as it was; a region leaves its
  output array at the whole-array function of its input arrays (the region modules) and every other buffer as it was.
  Carried along: the senders, the receivers, the weight column, and the arguments still to be read.  The first
  stretch computes the senders, the receivers and the weights; then product, rows, scaling, sum at the receivers and
  bias with rectification make one layer, twice; the head region closes.
-/
import proofs.«134347_j19172734010019_1_alg».proof.Proof.RegionMatmul
import proofs.«134347_j19172734010019_1_alg».proof.Proof.RegionScale
import proofs.«134347_j19172734010019_1_alg».proof.Proof.RegionBiasRelu
import proofs.«134347_j19172734010019_1_alg».proof.Proof.RegionHead
import Idealize.ShloMosaic.Lib.StableHlo.Run

set_option maxRecDepth 16384

noncomputable section

namespace Cert.KernelIdeal.KValue

open Idealize.ShloMosaic Idealize.ShloMosaic.TcCoe Idealize.SL.Sem Idealize.ShloMosaic.StableHlo
open Cert.KernelIdeal Cert.KernelIdeal.Gen Cert.KernelIdeal.GenP Cert.Spec Cert.SpecRead

variable (m : (ℓ : Loc nD τ sig) → Buf (Elt Ideal) ℓ) (ρ : Dev nD → PrngReg) (c : Dev nD)

/-- The first layer's output and the two layers' messages, of the launch contents. -/
abbrev hidden1 : AF S50000x128 := layer (m ((c.tc : Thread nD τ).loc main_arg1)) (m ((c.tc : Thread nD τ).loc main_arg0)) (m ((c.tc : Thread nD τ).loc main_arg2)) (m ((c.tc : Thread nD τ).loc main_arg3))
abbrev hidden2 : AF S50000x128 := layer (m ((c.tc : Thread nD τ).loc main_arg1)) (hidden1 m c) (m ((c.tc : Thread nD τ).loc main_arg4)) (m ((c.tc : Thread nD τ).loc main_arg5))
abbrev msg (h : AF S50000x128) (Wt : AF S128x128) : AF S650000x128 :=
  mulf (F := Ideal) (rows (m ((c.tc : Thread nD τ).loc main_arg1)) (proj h Wt)) (spread (normCol (norm (m ((c.tc : Thread nD τ).loc main_arg1)))))

/-! ## Boundary 1 -/
theorem w1_v3 : W1 m ρ c (Proc.devRef .tc main_v3) = srcIdx (m ((c.tc : Thread nD τ).loc main_arg1)) := by
  show StableHlo.after hostOps0 (W0 m ρ c) (Proc.devRef .tc main_v3) = _
  after_results
  rfl
theorem w1_v6 : W1 m ρ c (Proc.devRef .tc main_v6) = dstIdx (m ((c.tc : Thread nD τ).loc main_arg1)) := by
  show StableHlo.after hostOps0 (W0 m ρ c) (Proc.devRef .tc main_v6) = _
  after_results
  rfl
theorem w1_v27 : W1 m ρ c (Proc.devRef .tc main_v27) = normCol (norm (m ((c.tc : Thread nD τ).loc main_arg1))) := by
  show StableHlo.after hostOps0 (W0 m ρ c) (Proc.devRef .tc main_v27) = _
  after_results_simp
  exact Eq.trans rfl (reshape_eq_normCol (norm (m ((c.tc : Thread nD τ).loc main_arg1))) Cert.KernelIdeal.Gen.shapeCasts_S650000_S650000x1)
theorem w1_arg0 : W1 m ρ c (Proc.devRef .tc main_arg0) = (m ((c.tc : Thread nD τ).loc main_arg0)) := by
  show StableHlo.after hostOps0 (W0 m ρ c) (Proc.devRef .tc main_arg0) = _
  after_results <;> rfl
theorem w1_arg2 : W1 m ρ c (Proc.devRef .tc main_arg2) = (m ((c.tc : Thread nD τ).loc main_arg2)) := by
  show StableHlo.after hostOps0 (W0 m ρ c) (Proc.devRef .tc main_arg2) = _
  after_results <;> rfl
theorem w1_arg3 : W1 m ρ c (Proc.devRef .tc main_arg3) = (m ((c.tc : Thread nD τ).loc main_arg3)) := by
  show StableHlo.after hostOps0 (W0 m ρ c) (Proc.devRef .tc main_arg3) = _
  after_results <;> rfl
theorem w1_arg4 : W1 m ρ c (Proc.devRef .tc main_arg4) = (m ((c.tc : Thread nD τ).loc main_arg4)) := by
  show StableHlo.after hostOps0 (W0 m ρ c) (Proc.devRef .tc main_arg4) = _
  after_results <;> rfl
theorem w1_arg5 : W1 m ρ c (Proc.devRef .tc main_arg5) = (m ((c.tc : Thread nD τ).loc main_arg5)) := by
  show StableHlo.after hostOps0 (W0 m ρ c) (Proc.devRef .tc main_arg5) = _
  after_results <;> rfl
theorem w1_arg6 : W1 m ρ c (Proc.devRef .tc main_arg6) = (m ((c.tc : Thread nD τ).loc main_arg6)) := by
  show StableHlo.after hostOps0 (W0 m ρ c) (Proc.devRef .tc main_arg6) = _
  after_results <;> rfl
theorem w1_arg7 : W1 m ρ c (Proc.devRef .tc main_arg7) = (m ((c.tc : Thread nD τ).loc main_arg7)) := by
  show StableHlo.after hostOps0 (W0 m ρ c) (Proc.devRef .tc main_arg7) = _
  after_results <;> rfl

/-! ## Boundary 2 -/
theorem w2_v3 : W2 m ρ c (Proc.devRef .tc main_v3) = srcIdx (m ((c.tc : Thread nD τ).loc main_arg1)) :=
  (W2_of_ne m ρ c main_v3 (by decide)).trans (w1_v3 m ρ c)
theorem w2_v6 : W2 m ρ c (Proc.devRef .tc main_v6) = dstIdx (m ((c.tc : Thread nD τ).loc main_arg1)) :=
  (W2_of_ne m ρ c main_v6 (by decide)).trans (w1_v6 m ρ c)
theorem w2_v27 : W2 m ρ c (Proc.devRef .tc main_v27) = normCol (norm (m ((c.tc : Thread nD τ).loc main_arg1))) :=
  (W2_of_ne m ρ c main_v27 (by decide)).trans (w1_v27 m ρ c)
theorem w2_arg3 : W2 m ρ c (Proc.devRef .tc main_arg3) = (m ((c.tc : Thread nD τ).loc main_arg3)) :=
  (W2_of_ne m ρ c main_arg3 (by decide)).trans (w1_arg3 m ρ c)
theorem w2_arg4 : W2 m ρ c (Proc.devRef .tc main_arg4) = (m ((c.tc : Thread nD τ).loc main_arg4)) :=
  (W2_of_ne m ρ c main_arg4 (by decide)).trans (w1_arg4 m ρ c)
theorem w2_arg5 : W2 m ρ c (Proc.devRef .tc main_arg5) = (m ((c.tc : Thread nD τ).loc main_arg5)) :=
  (W2_of_ne m ρ c main_arg5 (by decide)).trans (w1_arg5 m ρ c)
theorem w2_arg6 : W2 m ρ c (Proc.devRef .tc main_arg6) = (m ((c.tc : Thread nD τ).loc main_arg6)) :=
  (W2_of_ne m ρ c main_arg6 (by decide)).trans (w1_arg6 m ρ c)
theorem w2_arg7 : W2 m ρ c (Proc.devRef .tc main_arg7) = (m ((c.tc : Thread nD τ).loc main_arg7)) :=
  (W2_of_ne m ρ c main_arg7 (by decide)).trans (w1_arg7 m ρ c)
/-- X*W1. -/
theorem w2_v28 : W2 m ρ c (Proc.devRef .tc main_v28) = proj (m ((c.tc : Thread nD τ).loc main_arg0)) (m ((c.tc : Thread nD τ).loc main_arg2)) := by
  refine (W2_arr m ρ c 2).trans ((Cert.KernelIdeal.RegionMatmul.final0 (V1 m ρ) c).trans ?_)
  show _ = proj (m ((c.tc : Thread nD τ).loc main_arg0)) (m ((c.tc : Thread nD τ).loc main_arg2))
  rw [show V1 m ρ c main_arg0 = _ from w1_arg0 m ρ c, show V1 m ρ c main_arg2 = _ from w1_arg2 m ρ c]

/-! ## Boundary 3 -/
theorem w3_v3 : W3 m ρ c (Proc.devRef .tc main_v3) = srcIdx (m ((c.tc : Thread nD τ).loc main_arg1)) := by
  show StableHlo.after hostOps1 (W2 m ρ c) (Proc.devRef .tc main_v3) = _
  after_results
  exact w2_v3 m ρ c
theorem w3_v6 : W3 m ρ c (Proc.devRef .tc main_v6) = dstIdx (m ((c.tc : Thread nD τ).loc main_arg1)) := by
  show StableHlo.after hostOps1 (W2 m ρ c) (Proc.devRef .tc main_v6) = _
  after_results
  exact w2_v6 m ρ c
theorem w3_v27 : W3 m ρ c (Proc.devRef .tc main_v27) = normCol (norm (m ((c.tc : Thread nD τ).loc main_arg1))) := by
  show StableHlo.after hostOps1 (W2 m ρ c) (Proc.devRef .tc main_v27) = _
  after_results
  exact w2_v27 m ρ c
theorem w3_arg3 : W3 m ρ c (Proc.devRef .tc main_arg3) = (m ((c.tc : Thread nD τ).loc main_arg3)) := by
  show StableHlo.after hostOps1 (W2 m ρ c) (Proc.devRef .tc main_arg3) = _
  after_results
  exact w2_arg3 m ρ c
theorem w3_arg4 : W3 m ρ c (Proc.devRef .tc main_arg4) = (m ((c.tc : Thread nD τ).loc main_arg4)) := by
  show StableHlo.after hostOps1 (W2 m ρ c) (Proc.devRef .tc main_arg4) = _
  after_results
  exact w2_arg4 m ρ c
theorem w3_arg5 : W3 m ρ c (Proc.devRef .tc main_arg5) = (m ((c.tc : Thread nD τ).loc main_arg5)) := by
  show StableHlo.after hostOps1 (W2 m ρ c) (Proc.devRef .tc main_arg5) = _
  after_results
  exact w2_arg5 m ρ c
theorem w3_arg6 : W3 m ρ c (Proc.devRef .tc main_arg6) = (m ((c.tc : Thread nD τ).loc main_arg6)) := by
  show StableHlo.after hostOps1 (W2 m ρ c) (Proc.devRef .tc main_arg6) = _
  after_results
  exact w2_arg6 m ρ c
theorem w3_arg7 : W3 m ρ c (Proc.devRef .tc main_arg7) = (m ((c.tc : Thread nD τ).loc main_arg7)) := by
  show StableHlo.after hostOps1 (W2 m ρ c) (Proc.devRef .tc main_arg7) = _
  after_results
  exact w2_arg7 m ρ c
/-- the senders' rows of X*W1. -/
theorem w3_v35 : W3 m ρ c (Proc.devRef .tc main_v35) = rows (m ((c.tc : Thread nD τ).loc main_arg1)) (proj (m ((c.tc : Thread nD τ).loc main_arg0)) (m ((c.tc : Thread nD τ).loc main_arg2))) := by
  show StableHlo.after hostOps1 (W2 m ρ c) (Proc.devRef .tc main_v35) = _
  after_results
  rw [w2_v28 m ρ c, w2_v3 m ρ c]
  rfl

/-! ## Boundary 4 -/
theorem w4_v3 : W4 m ρ c (Proc.devRef .tc main_v3) = srcIdx (m ((c.tc : Thread nD τ).loc main_arg1)) :=
  (W4_of_ne m ρ c main_v3 (by decide)).trans (w3_v3 m ρ c)
theorem w4_v6 : W4 m ρ c (Proc.devRef .tc main_v6) = dstIdx (m ((c.tc : Thread nD τ).loc main_arg1)) :=
  (W4_of_ne m ρ c main_v6 (by decide)).trans (w3_v6 m ρ c)
theorem w4_v27 : W4 m ρ c (Proc.devRef .tc main_v27) = normCol (norm (m ((c.tc : Thread nD τ).loc main_arg1))) :=
  (W4_arr m ρ c 1).trans (((dat1 (V3 m ρ) c).arrAt_in 1 rfl _).trans ((A_eq1 (V3 m ρ) c 1).trans (w3_v27 m ρ c)))
theorem w4_arg3 : W4 m ρ c (Proc.devRef .tc main_arg3) = (m ((c.tc : Thread nD τ).loc main_arg3)) :=
  (W4_of_ne m ρ c main_arg3 (by decide)).trans (w3_arg3 m ρ c)
theorem w4_arg4 : W4 m ρ c (Proc.devRef .tc main_arg4) = (m ((c.tc : Thread nD τ).loc main_arg4)) :=
  (W4_of_ne m ρ c main_arg4 (by decide)).trans (w3_arg4 m ρ c)
theorem w4_arg5 : W4 m ρ c (Proc.devRef .tc main_arg5) = (m ((c.tc : Thread nD τ).loc main_arg5)) :=
  (W4_of_ne m ρ c main_arg5 (by decide)).trans (w3_arg5 m ρ c)
theorem w4_arg6 : W4 m ρ c (Proc.devRef .tc main_arg6) = (m ((c.tc : Thread nD τ).loc main_arg6)) :=
  (W4_of_ne m ρ c main_arg6 (by decide)).trans (w3_arg6 m ρ c)
theorem w4_arg7 : W4 m ρ c (Proc.devRef .tc main_arg7) = (m ((c.tc : Thread nD τ).loc main_arg7)) :=
  (W4_of_ne m ρ c main_arg7 (by decide)).trans (w3_arg7 m ρ c)
/-- the first layer's messages. -/
theorem w4_v36 : W4 m ρ c (Proc.devRef .tc main_v36) = msg m c (m ((c.tc : Thread nD τ).loc main_arg0)) (m ((c.tc : Thread nD τ).loc main_arg2)) := by
  refine (W4_arr m ρ c 2).trans ((Cert.KernelIdeal.RegionScale.final1 (V3 m ρ) c).trans ?_)
  show _ = msg m c (m ((c.tc : Thread nD τ).loc main_arg0)) (m ((c.tc : Thread nD τ).loc main_arg2))
  rw [show V3 m ρ c main_v35 = _ from w3_v35 m ρ c, show V3 m ρ c main_v27 = _ from w3_v27 m ρ c]

/-! ## Boundary 5 -/
theorem w5_v3 : W5 m ρ c (Proc.devRef .tc main_v3) = srcIdx (m ((c.tc : Thread nD τ).loc main_arg1)) := by
  show StableHlo.after hostOps2 (W4 m ρ c) (Proc.devRef .tc main_v3) = _
  after_results
  exact w4_v3 m ρ c
theorem w5_v6 : W5 m ρ c (Proc.devRef .tc main_v6) = dstIdx (m ((c.tc : Thread nD τ).loc main_arg1)) := by
  show StableHlo.after hostOps2 (W4 m ρ c) (Proc.devRef .tc main_v6) = _
  after_results
  exact w4_v6 m ρ c
theorem w5_v27 : W5 m ρ c (Proc.devRef .tc main_v27) = normCol (norm (m ((c.tc : Thread nD τ).loc main_arg1))) := by
  show StableHlo.after hostOps2 (W4 m ρ c) (Proc.devRef .tc main_v27) = _
  after_results
  exact w4_v27 m ρ c
theorem w5_arg3 : W5 m ρ c (Proc.devRef .tc main_arg3) = (m ((c.tc : Thread nD τ).loc main_arg3)) := by
  show StableHlo.after hostOps2 (W4 m ρ c) (Proc.devRef .tc main_arg3) = _
  after_results
  exact w4_arg3 m ρ c
theorem w5_arg4 : W5 m ρ c (Proc.devRef .tc main_arg4) = (m ((c.tc : Thread nD τ).loc main_arg4)) := by
  show StableHlo.after hostOps2 (W4 m ρ c) (Proc.devRef .tc main_arg4) = _
  after_results
  exact w4_arg4 m ρ c
theorem w5_arg5 : W5 m ρ c (Proc.devRef .tc main_arg5) = (m ((c.tc : Thread nD τ).loc main_arg5)) := by
  show StableHlo.after hostOps2 (W4 m ρ c) (Proc.devRef .tc main_arg5) = _
  after_results
  exact w4_arg5 m ρ c
theorem w5_arg6 : W5 m ρ c (Proc.devRef .tc main_arg6) = (m ((c.tc : Thread nD τ).loc main_arg6)) := by
  show StableHlo.after hostOps2 (W4 m ρ c) (Proc.devRef .tc main_arg6) = _
  after_results
  exact w4_arg6 m ρ c
theorem w5_arg7 : W5 m ρ c (Proc.devRef .tc main_arg7) = (m ((c.tc : Thread nD τ).loc main_arg7)) := by
  show StableHlo.after hostOps2 (W4 m ρ c) (Proc.devRef .tc main_arg7) = _
  after_results
  exact w4_arg7 m ρ c
/-- the first layer's messages added up at the receivers. -/
theorem w5_v39 : W5 m ρ c (Proc.devRef .tc main_v39) = agg (m ((c.tc : Thread nD τ).loc main_arg1)) (msg m c (m ((c.tc : Thread nD τ).loc main_arg0)) (m ((c.tc : Thread nD τ).loc main_arg2))) := by
  show StableHlo.after hostOps2 (W4 m ρ c) (Proc.devRef .tc main_v39) = _
  after_results
  rw [w4_v6 m ρ c, w4_v36 m ρ c]
  rfl

/-! ## Boundary 6 -/
theorem w6_v3 : W6 m ρ c (Proc.devRef .tc main_v3) = srcIdx (m ((c.tc : Thread nD τ).loc main_arg1)) :=
  (W6_of_ne m ρ c main_v3 (by decide)).trans (w5_v3 m ρ c)
theorem w6_v6 : W6 m ρ c (Proc.devRef .tc main_v6) = dstIdx (m ((c.tc : Thread nD τ).loc main_arg1)) :=
  (W6_of_ne m ρ c main_v6 (by decide)).trans (w5_v6 m ρ c)
theorem w6_v27 : W6 m ρ c (Proc.devRef .tc main_v27) = normCol (norm (m ((c.tc : Thread nD τ).loc main_arg1))) :=
  (W6_of_ne m ρ c main_v27 (by decide)).trans (w5_v27 m ρ c)
theorem w6_arg4 : W6 m ρ c (Proc.devRef .tc main_arg4) = (m ((c.tc : Thread nD τ).loc main_arg4)) :=
  (W6_of_ne m ρ c main_arg4 (by decide)).trans (w5_arg4 m ρ c)
theorem w6_arg5 : W6 m ρ c (Proc.devRef .tc main_arg5) = (m ((c.tc : Thread nD τ).loc main_arg5)) :=
  (W6_of_ne m ρ c main_arg5 (by decide)).trans (w5_arg5 m ρ c)
theorem w6_arg6 : W6 m ρ c (Proc.devRef .tc main_arg6) = (m ((c.tc : Thread nD τ).loc main_arg6)) :=
  (W6_of_ne m ρ c main_arg6 (by decide)).trans (w5_arg6 m ρ c)
theorem w6_arg7 : W6 m ρ c (Proc.devRef .tc main_arg7) = (m ((c.tc : Thread nD τ).loc main_arg7)) :=
  (W6_of_ne m ρ c main_arg7 (by decide)).trans (w5_arg7 m ρ c)
/-- the first layer's output. -/
theorem w6_v40 : W6 m ρ c (Proc.devRef .tc main_v40) = hidden1 m c := by
  refine (W6_arr m ρ c 2).trans ((Cert.KernelIdeal.RegionBiasRelu.final2 (V5 m ρ) c).trans ?_)
  show _ = hidden1 m c
  rw [show V5 m ρ c main_v39 = _ from w5_v39 m ρ c, show V5 m ρ c main_arg3 = _ from w5_arg3 m ρ c]
  rfl

/-! ## Boundary 7 -/
theorem w7_v3 : W7 m ρ c (Proc.devRef .tc main_v3) = srcIdx (m ((c.tc : Thread nD τ).loc main_arg1)) :=
  (W7_of_ne m ρ c main_v3 (by decide)).trans (w6_v3 m ρ c)
theorem w7_v6 : W7 m ρ c (Proc.devRef .tc main_v6) = dstIdx (m ((c.tc : Thread nD τ).loc main_arg1)) :=
  (W7_of_ne m ρ c main_v6 (by decide)).trans (w6_v6 m ρ c)
theorem w7_v27 : W7 m ρ c (Proc.devRef .tc main_v27) = normCol (norm (m ((c.tc : Thread nD τ).loc main_arg1))) :=
  (W7_of_ne m ρ c main_v27 (by decide)).trans (w6_v27 m ρ c)
theorem w7_arg5 : W7 m ρ c (Proc.devRef .tc main_arg5) = (m ((c.tc : Thread nD τ).loc main_arg5)) :=
  (W7_of_ne m ρ c main_arg5 (by decide)).trans (w6_arg5 m ρ c)
theorem w7_arg6 : W7 m ρ c (Proc.devRef .tc main_arg6) = (m ((c.tc : Thread nD τ).loc main_arg6)) :=
  (W7_of_ne m ρ c main_arg6 (by decide)).trans (w6_arg6 m ρ c)
theorem w7_arg7 : W7 m ρ c (Proc.devRef .tc main_arg7) = (m ((c.tc : Thread nD τ).loc main_arg7)) :=
  (W7_of_ne m ρ c main_arg7 (by decide)).trans (w6_arg7 m ρ c)
/-- H1*W2. -/
theorem w7_v41 : W7 m ρ c (Proc.devRef .tc main_v41) = proj (hidden1 m c) (m ((c.tc : Thread nD τ).loc main_arg4)) := by
  refine (W7_arr m ρ c 2).trans ((Cert.KernelIdeal.RegionMatmul.final3 (V6 m ρ) c).trans ?_)
  show _ = proj (hidden1 m c) (m ((c.tc : Thread nD τ).loc main_arg4))
  rw [show V6 m ρ c main_v40 = _ from w6_v40 m ρ c, show V6 m ρ c main_arg4 = _ from w6_arg4 m ρ c]

/-! ## Boundary 8 -/
theorem w8_v6 : W8 m ρ c (Proc.devRef .tc main_v6) = dstIdx (m ((c.tc : Thread nD τ).loc main_arg1)) := by
  show StableHlo.after hostOps4 (W7 m ρ c) (Proc.devRef .tc main_v6) = _
  after_results
  exact w7_v6 m ρ c
theorem w8_v27 : W8 m ρ c (Proc.devRef .tc main_v27) = normCol (norm (m ((c.tc : Thread nD τ).loc main_arg1))) := by
  show StableHlo.after hostOps4 (W7 m ρ c) (Proc.devRef .tc main_v27) = _
  after_results
  exact w7_v27 m ρ c
theorem w8_arg5 : W8 m ρ c (Proc.devRef .tc main_arg5) = (m ((c.tc : Thread nD τ).loc main_arg5)) := by
  show StableHlo.after hostOps4 (W7 m ρ c) (Proc.devRef .tc main_arg5) = _
  after_results
  exact w7_arg5 m ρ c
theorem w8_arg6 : W8 m ρ c (Proc.devRef .tc main_arg6) = (m ((c.tc : Thread nD τ).loc main_arg6)) := by
  show StableHlo.after hostOps4 (W7 m ρ c) (Proc.devRef .tc main_arg6) = _
  after_results
  exact w7_arg6 m ρ c
theorem w8_arg7 : W8 m ρ c (Proc.devRef .tc main_arg7) = (m ((c.tc : Thread nD τ).loc main_arg7)) := by
  show StableHlo.after hostOps4 (W7 m ρ c) (Proc.devRef .tc main_arg7) = _
  after_results
  exact w7_arg7 m ρ c
/-- the senders' rows of H1*W2. -/
theorem w8_v48 : W8 m ρ c (Proc.devRef .tc main_v48) = rows (m ((c.tc : Thread nD τ).loc main_arg1)) (proj (hidden1 m c) (m ((c.tc : Thread nD τ).loc main_arg4))) := by
  show StableHlo.after hostOps4 (W7 m ρ c) (Proc.devRef .tc main_v48) = _
  after_results
  rw [w7_v41 m ρ c, w7_v3 m ρ c]
  rfl

/-! ## Boundary 9 -/
theorem w9_v6 : W9 m ρ c (Proc.devRef .tc main_v6) = dstIdx (m ((c.tc : Thread nD τ).loc main_arg1)) :=
  (W9_of_ne m ρ c main_v6 (by decide)).trans (w8_v6 m ρ c)
theorem w9_arg5 : W9 m ρ c (Proc.devRef .tc main_arg5) = (m ((c.tc : Thread nD τ).loc main_arg5)) :=
  (W9_of_ne m ρ c main_arg5 (by decide)).trans (w8_arg5 m ρ c)
theorem w9_arg6 : W9 m ρ c (Proc.devRef .tc main_arg6) = (m ((c.tc : Thread nD τ).loc main_arg6)) :=
  (W9_of_ne m ρ c main_arg6 (by decide)).trans (w8_arg6 m ρ c)
theorem w9_arg7 : W9 m ρ c (Proc.devRef .tc main_arg7) = (m ((c.tc : Thread nD τ).loc main_arg7)) :=
  (W9_of_ne m ρ c main_arg7 (by decide)).trans (w8_arg7 m ρ c)
/-- the second layer's messages. -/
theorem w9_v49 : W9 m ρ c (Proc.devRef .tc main_v49) = msg m c (hidden1 m c) (m ((c.tc : Thread nD τ).loc main_arg4)) := by
  refine (W9_arr m ρ c 2).trans ((Cert.KernelIdeal.RegionScale.final4 (V8 m ρ) c).trans ?_)
  show _ = msg m c (hidden1 m c) (m ((c.tc : Thread nD τ).loc main_arg4))
  rw [show V8 m ρ c main_v48 = _ from w8_v48 m ρ c, show V8 m ρ c main_v27 = _ from w8_v27 m ρ c]

/-! ## Boundary 10 -/
theorem w10_arg5 : W10 m ρ c (Proc.devRef .tc main_arg5) = (m ((c.tc : Thread nD τ).loc main_arg5)) := by
  show StableHlo.after hostOps5 (W9 m ρ c) (Proc.devRef .tc main_arg5) = _
  after_results
  exact w9_arg5 m ρ c
theorem w10_arg6 : W10 m ρ c (Proc.devRef .tc main_arg6) = (m ((c.tc : Thread nD τ).loc main_arg6)) := by
  show StableHlo.after hostOps5 (W9 m ρ c) (Proc.devRef .tc main_arg6) = _
  after_results
  exact w9_arg6 m ρ c
theorem w10_arg7 : W10 m ρ c (Proc.devRef .tc main_arg7) = (m ((c.tc : Thread nD τ).loc main_arg7)) := by
  show StableHlo.after hostOps5 (W9 m ρ c) (Proc.devRef .tc main_arg7) = _
  after_results
  exact w9_arg7 m ρ c
/-- the second layer's messages added up at the receivers. -/
theorem w10_v52 : W10 m ρ c (Proc.devRef .tc main_v52) = agg (m ((c.tc : Thread nD τ).loc main_arg1)) (msg m c (hidden1 m c) (m ((c.tc : Thread nD τ).loc main_arg4))) := by
  show StableHlo.after hostOps5 (W9 m ρ c) (Proc.devRef .tc main_v52) = _
  after_results
  rw [w9_v6 m ρ c, w9_v49 m ρ c]
  rfl

/-! ## Boundary 11 -/
theorem w11_arg6 : W11 m ρ c (Proc.devRef .tc main_arg6) = (m ((c.tc : Thread nD τ).loc main_arg6)) :=
  (W11_of_ne m ρ c main_arg6 (by decide)).trans (w10_arg6 m ρ c)
theorem w11_arg7 : W11 m ρ c (Proc.devRef .tc main_arg7) = (m ((c.tc : Thread nD τ).loc main_arg7)) :=
  (W11_of_ne m ρ c main_arg7 (by decide)).trans (w10_arg7 m ρ c)
/-- the second layer's output. -/
theorem w11_v53 : W11 m ρ c (Proc.devRef .tc main_v53) = hidden2 m c := by
  refine (W11_arr m ρ c 2).trans ((Cert.KernelIdeal.RegionBiasRelu.final5 (V10 m ρ) c).trans ?_)
  show _ = hidden2 m c
  rw [show V10 m ρ c main_v52 = _ from w10_v52 m ρ c, show V10 m ρ c main_arg5 = _ from w10_arg5 m ρ c]
  rfl

/-! ## Boundary 12 -/
/-- the network. -/
theorem w12_v54 : W12 m ρ c (Proc.devRef .tc main_v54) = net (m ((c.tc : Thread nD τ).loc main_arg1)) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (W12_arr m ρ c 3).trans ((Cert.KernelIdeal.RegionHead.final6 (V11 m ρ) c).trans ?_)
  show _ = net (m ((c.tc : Thread nD τ).loc main_arg1)) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
  rw [show V11 m ρ c main_v53 = _ from w11_v53 m ρ c, show V11 m ρ c main_arg6 = _ from w11_arg6 m ρ c, show V11 m ρ c main_arg7 = _ from w11_arg7 m ρ c]
  rfl

/-- The result buffer after the run holds the network of the launch contents of the arguments. -/
theorem result_eq : W12 m ρ c (Proc.devRef .tc main_v54) = net (m ((c.tc : Thread nD τ).loc main_arg1)) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := w12_v54 m ρ c

end Cert.KernelIdeal.KValue

end
-- ==== Proof.RefValue.lean ====
/-
  The reference's run, read: its result array is the network of its argument arrays.
  The generated run states the result as one composed term of the host operations; the definitions of the
  specification are that term cut into named pieces, so the two agree by unfolding.
-/
import proofs.«134347_j19172734010019_1_alg».proof.Proof.Spec
import proofs.«134347_j19172734010019_1_alg».proof.Proof.Gen.ReferenceIdeal.Run

noncomputable section

namespace Cert.RefValue

open Idealize.ShloMosaic Idealize.ShloMosaic.TcCoe Idealize.SL.Sem Cert.ReferenceIdeal

set_option maxRecDepth 8192 in
/-- The reference's result term is the network of the launch contents of its arguments. -/
theorem result_eq (m : (ℓ : Loc nD τ sig) → Buf (Elt Ideal) ℓ) (c : Dev nD) :
    Cert.ReferenceIdeal.Value.res_main_v81 (F := Ideal) m c
      = Cert.Spec.net (m ((c.tc : Thread nD τ).loc main_arg1)) (m ((c.tc : Thread nD τ).loc main_arg0))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  unfold Cert.ReferenceIdeal.Value.res_main_v81
  rfl

end Cert.RefValue

end
-- ==== Proof.lean ====
/-
  A two-layer graph convolution with a linear head, as seven kernels among host gathers and scatters, against the same
  network written with host operations only.

  Both programs append a self loop to every node, count the pairs each node receives, weigh pair e by
  deg(sender e)^(-1/2) * deg(receiver e)^(-1/2), and compute twice max(S(N * R(X*W)) + b, 0) — R fetching the sender's row of X*W for every pair, N scaling row e by
  its weight, S adding the rows up at their receivers — and then H*Wo + bo.  The kernel program computes X*W, N,
  the bias with the rectification and the head in kernels over blocks of 5000 rows, and R and S on the host; the
  reference computes everything on the host.  On the extended reals a product into a zero accumulator is the host's
  product, narrowing the operands to bf16 is the identity, and the blocks of each kernel tile its arrays, so each kernel leaves
  the array the host operation would have left; the rest of the two programs is the same host operations in the same
  order.  No law of arithmetic is needed beyond that, and the precondition is not used.

  The frames of the two kernel programs are their frame certificates; the reference's frame is its run with the result
  dropped; the idealization rewrote nothing.
-/
import proofs.«134347_j19172734010019_1_alg».proof.Defs
import proofs.«134347_j19172734010019_1_alg».proof.Proof.Gen.Kernel
import proofs.«134347_j19172734010019_1_alg».proof.Proof.Gen.KernelIdeal
import proofs.«134347_j19172734010019_1_alg».proof.Proof.Gen.ReferenceIdeal
import proofs.«134347_j19172734010019_1_alg».proof.Proof.Gen.Pre_finite_inputs
import proofs.«134347_j19172734010019_1_alg».proof.Proof.Gen.ReferenceIdeal.Run
import proofs.«134347_j19172734010019_1_alg».proof.Proof.KernelFrameP
import proofs.«134347_j19172734010019_1_alg».proof.Proof.KernelIdealFrameP
import proofs.«134347_j19172734010019_1_alg».proof.Proof.KernelRun
import proofs.«134347_j19172734010019_1_alg».proof.Proof.KernelValue
import proofs.«134347_j19172734010019_1_alg».proof.Proof.RefValue
import Idealize.ShloMosaic.Adequacy
import Idealize.ShloMosaic.Init

noncomputable section

namespace Cert.Proof

open Idealize.ShloMosaic Idealize.ShloMosaic.TcCoe Idealize.SL.Sem

/-- The kernel program runs and leaves its arguments as launched. -/
theorem frame_kernel : Cert.frame_Kernel := fun m ρ _ => Cert.Kernel.GenP.frame m ρ

/-- The idealized kernel program runs and leaves its arguments as launched. -/
theorem frame_kernelIdeal : Cert.frame_KernelIdeal := fun m ρ _ => Cert.KernelIdeal.GenP.frame m ρ

/-- The reference runs and leaves its arguments as launched: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Run from memories that agree on the arguments, both programs end with the network of those arguments in their
    result arrays. -/
theorem algebraic : Cert.algebraic_KernelIdeal_ReferenceIdeal := by
  intro m ρ m' ρ' _ hagree
  refine ⟨fun c => Cert.Spec.net (m ((c.tc : Thread Cert.KernelIdeal.nD Cert.KernelIdeal.τ).loc Cert.KernelIdeal.main_arg1)) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
    (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.KValue.result_eq m ρ c), (h c).2⟩)
      (Cert.KernelIdeal.Run.run_value (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7⟩ := hagree c
    rw [Cert.RefValue.result_eq m' c, e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
